-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v122)) (v1 : (c : Dev Cert.KernelIdeal.nD) → Buf (Elt Ideal) ((c.tc : Thread Cert.KernelIdeal.nD Cert.KernelIdeal.τ).loc Cert.KernelIdeal.main_v141)) (v2 : (c : Dev Cert.KernelIdeal.nD) → Buf (Elt Ideal) ((c.tc : Thread Cert.KernelIdeal.nD Cert.KernelIdeal.τ).loc Cert.KernelIdeal.main_v70)) (v3 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x128 : Shape := ⟨2, ![250000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S500000 : Shape := ⟨1, ![500000]⟩
abbrev S_ : Shape := ⟨0, ![]⟩

class Facts : Prop where
  bcast_S_S250000x128 : S_.BroadcastsInDim S250000x128 (![] : Fin 0 → Fin S250000x128.rank)
  reducesTo_S250000x128_S_d0_1 : S250000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2 .f32) (main_arg12 : FVec F S64x2 .f32) (main_arg13 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S64x2 .f32 := Host.absf main_arg12
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg7 : FVec F S64 .f32) (main_arg8 : FVec F S64x2 .f32) (main_arg9 : FVec F S2 .f32) (main_arg10 : FVec F S64x2 .f32) (main_arg11 : FVec F S2 .f32) (main_arg12 : FVec F S64x2 .f32) (main_arg13 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg8
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S64x2 .f32 := Host.absf main_arg10
  let main_cst_18 : FVec F S_ .f32 := constant S_ .f32 0x7F800000#32
  let main_v50 : FVec F S64x2 .f32 := broadcastInDim S64x2 ![] bcast_S_S64x2 main_cst_18
  fn_part3 (F := F) main_arg11 main_arg12 main_arg13 main_v48 main_v49 main_v50

def fn_part1 {F : FTy → Type} [FloatOps F] (main_arg4 : FVec F S128x64 .f32) (main_arg5 : FVec F S64 .f32) (main_arg6 : FVec F S128x64 .f32) (main_arg7 : FVec F S64 .f32) (main_arg8 : FVec F S64x2 .f32) (main_arg9 : FVec F S2 .f32) (main_arg10 : FVec F S64x2 .f32) (main_arg11 : FVec F S2 .f32) (main_arg12 : FVec F S64x2 .f32) (main_arg13 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S250000x128 .f32) (main_arg1 : FVec F S250000x128 .f32) (main_arg2 : FVec F S128x64 .f32) (main_arg3 : FVec F S64 .f32) (main_arg4 : FVec F S128x64 .f32) (main_arg5 : FVec F S64 .f32) (main_arg6 : FVec F S128x64 .f32) (main_arg7 : FVec F S64 .f32) (main_arg8 : FVec F S64x2 .f32) (main_arg9 : FVec F S2 .f32) (main_arg10 : FVec F S64x2 .f32) (main_arg11 : FVec F S2 .f32) (main_arg12 : FVec F S64x2 .f32) (main_arg13 : FVec F S2 .f32) (main_arg14 : IVec S500000 32) (main_arg15 : IVec S500000 32) (main_arg16 : IVec S500000 32) (main_arg17 : IVec S500000 32) (main_arg18 : IVec S500000 32) (main_arg19 : IVec S500000 32) : IVec S_ 1 :=
  let main_v0 : FVec F S250000x128 .f32 := Host.absf main_arg0
  let main_cst : FVec F S_ .f32 := constant S_ .f32 0x7F800000#32
  let main_v1 : FVec F S250000x128 .f32 := broadcastInDim S250000x128 ![] bcast_S_S250000x128 main_cst
  let main_v2 : IVec S250000x128 1 := cmpf .olt main_v0 main_v1
  let main_c : IVec S_ 1 := constantI S_ 1 1#1
  let main_v3 : IVec S_ 1 := (fun x v => Host.reduce IntOp.andi x v reducesTo_S250000x128_S_d0_1 h_S_) main_v2 main_c
  let main_v4 : FVec F S250000x128 .f32 := Host.absf main_arg1
  let main_cst_0 : FVec F S_ .f32 := constant S_ .f32 0x7F800000#32
  let main_v5 : FVec F S250000x128 .f32 := broadcastInDim S250000x128 ![] bcast_S_S250000x128 main_cst_0
  let main_v6 : IVec S250000x128 1 := cmpf .olt main_v4 main_v5
  let main_c_1 : IVec S_ 1 := constantI S_ 1 1#1
  let main_v7 : IVec S_ 1 := (fun x v => Host.reduce IntOp.andi x v reducesTo_S250000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S250000x128 : Shape := ⟨2, ![250000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S500000 : Shape := ⟨1, ![500000]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S250000x64 : Shape := ⟨2, ![250000, 64]⟩
abbrev S1x64 : Shape := ⟨2, ![1, 64]⟩
abbrev S10000x64 : Shape := ⟨2, ![10000, 64]⟩
abbrev S_ : Shape := ⟨0, ![]⟩
abbrev S500000x1 : Shape := ⟨2, ![500000, 1]⟩
abbrev S500000x64 : Shape := ⟨2, ![500000, 64]⟩
abbrev S250000 : Shape := ⟨1, ![250000]⟩
abbrev S250000x1 : Shape := ⟨2, ![250000, 1]⟩
abbrev S64x4 : Shape := ⟨2, ![64, 4]⟩
abbrev S4 : Shape := ⟨1, ![4]⟩
abbrev S1x4 : Shape := ⟨2, ![1, 4]⟩
abbrev S250000x4 : Shape := ⟨2, ![250000, 4]⟩
abbrev S10000x4 : Shape := ⟨2, ![10000, 4]⟩
abbrev S250000x2 : Shape := ⟨2, ![250000, 2]⟩
abbrev S1x2 : Shape := ⟨2, ![1, 2]⟩
abbrev S10000x2 : Shape := ⟨2, ![10000, 2]⟩
abbrev S500000x2 : Shape := ⟨2, ![500000, 2]⟩

abbrev nBuf : Space → Nat
  | .hbm => 202
  | .vmem => 24
  | .smem => 0
  | _ => 0

abbrev hbmTy0_0 (i : Nat) : BufTy := match i % 128 with
  | 0 => ⟨S250000x128, .f32⟩
  | 1 => ⟨S250000x128, .f32⟩
  | 2 => ⟨S128x64, .f32⟩
  | 3 => ⟨S64, .f32⟩
  | 4 => ⟨S128x64, .f32⟩
  | 5 => ⟨S64, .f32⟩
  | 6 => ⟨S128x64, .f32⟩
  | 7 => ⟨S64, .f32⟩
  | 8 => ⟨S64x2, .f32⟩
  | 9 => ⟨S2, .f32⟩
  | 10 => ⟨S64x2, .f32⟩
  | 11 => ⟨S2, .f32⟩
  | 12 => ⟨S64x2, .f32⟩
  | 13 => ⟨S2, .f32⟩
  | 14 => ⟨S500000, .i32⟩
  | 15 => ⟨S500000, .i32⟩
  | 16 => ⟨S500000, .i32⟩
  | 17 => ⟨S500000, .i32⟩
  | 18 => ⟨S500000, .i32⟩
  | 19 => ⟨S500000, .i32⟩
  | 20 => ⟨S128x128, .f32⟩
  | 21 => ⟨S128, .f32⟩
  | 22 => ⟨S1x128, .f32⟩
  | 23 => ⟨S250000x128, .f32⟩
  | 24 => ⟨S250000x64, .f32⟩
  | 25 => ⟨S250000x64, .f32⟩
  | 26 => ⟨S1x64, .f32⟩
  | 27 => ⟨S250000x64, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S_, .f32⟩
  | 38 => ⟨S250000x64, .f32⟩
  | 39 => ⟨S500000x1, .i32⟩
  | 40 => ⟨S250000x64, .f32⟩
  | 41 => ⟨S_, .f32⟩
  | 42 => ⟨S500000, .f32⟩
  | 43 => ⟨S_, .f32⟩
  | 44 => ⟨S250000, .f32⟩
  | 45 => ⟨S500000x1, .i32⟩
  | 46 => ⟨S250000, .f32⟩
  | 47 => ⟨S_, .f32⟩
  | 48 => ⟨S250000, .f32⟩
  | 49 => ⟨S250000, .f32⟩
  | 50 => ⟨S250000x1, .f32⟩
  | 51 => ⟨S250000x64, .f32⟩
  | 52 => ⟨S250000x64, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x64, .f32⟩
  | 62 => ⟨S_, .f32⟩
  | 63 => ⟨S250000x64, .f32⟩
  | 64 => ⟨S500000x1, .i32⟩
  | 65 => ⟨S250000x64, .f32⟩
  | 66 => ⟨S_, .f32⟩
  | 67 => ⟨S500000, .f32⟩
  | 68 => ⟨S_, .f32⟩
  | 69 => ⟨S250000, .f32⟩
  | 70 => ⟨S500000x1, .i32⟩
  | 71 => ⟨S250000, .f32⟩
  | 72 => ⟨S_, .f32⟩
  | 73 => ⟨S250000, .f32⟩
  | 74 => ⟨S250000, .f32⟩
  | 75 => ⟨S250000x1, .f32⟩
  | 76 => ⟨S250000x64, .f32⟩
  | 77 => ⟨S250000x64, .f32⟩
  | 78 => ⟨S250000x64, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x64, .f32⟩
  | 88 => ⟨S_, .f32⟩
  | 89 => ⟨S250000x64, .f32⟩
  | 90 => ⟨S500000x1, .i32⟩
  | 91 => ⟨S250000x64, .f32⟩
  | 92 => ⟨S_, .f32⟩
  | 93 => ⟨S500000, .f32⟩
  | 94 => ⟨S_, .f32⟩
  | 95 => ⟨S250000, .f32⟩
  | 96 => ⟨S500000x1, .i32⟩
  | 97 => ⟨S250000, .f32⟩
  | 98 => ⟨S_, .f32⟩
  | 99 => ⟨S250000, .f32⟩
  | 100 => ⟨S250000, .f32⟩
  | 101 => ⟨S250000x1, .f32⟩
  | 102 => ⟨S250000x64, .f32⟩
  | 103 => ⟨S250000x64, .f32⟩
  | 104 => ⟨S_, .f32⟩
  | 105 => ⟨S250000x64, .f32⟩
  | 106 => ⟨S250000x64, .i1⟩
  | 107 => ⟨S_, .f32⟩
  | 108 => ⟨S250000x64, .f32⟩
  | 109 => ⟨S250000x64, .f32⟩
  | 110 => ⟨S250000x64, .f32⟩
  | 111 => ⟨S_, .f32⟩
  | 112 => ⟨S250000x64, .f32⟩
  | 113 => ⟨S250000x64, .i1⟩
  | 114 => ⟨S_, .f32⟩
  | 115 => ⟨S250000x64, .f32⟩
  | 116 => ⟨S250000x64, .f32⟩
  | 117 => ⟨S250000x64, .f32⟩
  | 118 => ⟨S64x4, .f32⟩
  | 119 => ⟨S4, .f32⟩
  | 120 => ⟨S1x4, .f32⟩
  | 121 => ⟨S250000x4, .f32⟩
  | 122 => ⟨S250000x2, .f32⟩
  | 123 => ⟨S250000x2, .f32⟩
  | 124 => ⟨S1x2, .f32⟩
  | 125 => ⟨S250000x2, .f32⟩
  | 126 => ⟨S_, .i32⟩
  | 127 => ⟨S500000, .i32⟩
  | _ => ⟨S250000x128, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x2, .f32⟩
  | 7 => ⟨S_, .f32⟩
  | 8 => ⟨S250000x2, .f32⟩
  | 9 => ⟨S500000x1, .i32⟩
  | 10 => ⟨S250000x2, .f32⟩
  | 11 => ⟨S_, .f32⟩
  | 12 => ⟨S500000, .f32⟩
  | 13 => ⟨S_, .f32⟩
  | 14 => ⟨S250000, .f32⟩
  | 15 => ⟨S500000x1, .i32⟩
  | 16 => ⟨S250000, .f32⟩
  | 17 => ⟨S_, .f32⟩
  | 18 => ⟨S250000, .f32⟩
  | 19 => ⟨S250000, .f32⟩
  | 20 => ⟨S250000x1, .f32⟩
  | 21 => ⟨S250000x2, .f32⟩
  | 22 => ⟨S250000x2, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x2, .f32⟩
  | 32 => ⟨S_, .f32⟩
  | 33 => ⟨S250000x2, .f32⟩
  | 34 => ⟨S500000x1, .i32⟩
  | 35 => ⟨S250000x2, .f32⟩
  | 36 => ⟨S_, .f32⟩
  | 37 => ⟨S500000, .f32⟩
  | 38 => ⟨S_, .f32⟩
  | 39 => ⟨S250000, .f32⟩
  | 40 => ⟨S500000x1, .i32⟩
  | 41 => ⟨S250000, .f32⟩
  | 42 => ⟨S_, .f32⟩
  | 43 => ⟨S250000, .f32⟩
  | 44 => ⟨S250000, .f32⟩
  | 45 => ⟨S250000x1, .f32⟩
  | 46 => ⟨S250000x2, .f32⟩
  | 47 => ⟨S250000x2, .f32⟩
  | 48 => ⟨S250000x2, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x2, .f32⟩
  | 58 => ⟨S_, .f32⟩
  | 59 => ⟨S250000x2, .f32⟩
  | 60 => ⟨S500000x1, .i32⟩
  | 61 => ⟨S250000x2, .f32⟩
  | 62 => ⟨S_, .f32⟩
  | 63 => ⟨S500000, .f32⟩
  | 64 => ⟨S_, .f32⟩
  | 65 => ⟨S250000, .f32⟩
  | 66 => ⟨S500000x1, .i32⟩
  | 67 => ⟨S250000, .f32⟩
  | 68 => ⟨S_, .f32⟩
  | 69 => ⟨S250000, .f32⟩
  | 70 => ⟨S250000, .f32⟩
  | 71 => ⟨S250000x1, .f32⟩
  | 72 => ⟨S250000x2, .f32⟩
  | 73 => ⟨S250000x2, .f32⟩
  | _ => ⟨S250000x128, .f32⟩

abbrev hbmTy (i : Nat) : BufTy := match i / 128 with
  | 0 => hbmTy0_0 i
  | 1 => hbmTy0_1 i
  | _ => ⟨S250000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x4, .f32⟩
  | .local _ .vmem, ⟨15, _⟩ => ⟨S1x4, .f32⟩
  | .local _ .vmem, ⟨16, _⟩ => ⟨S10000x4, .f32⟩
  | .local _ .vmem, ⟨17, _⟩ => ⟨S10000x4, .f32⟩
  | .local _ .vmem, ⟨18, _⟩ => ⟨S10000x64, .f32⟩
  | .local _ .vmem, ⟨19, _⟩ => ⟨S10000x64, .f32⟩
  | .local _ .vmem, ⟨20, _⟩ => ⟨S64x2, .f32⟩
  | .local _ .vmem, ⟨21, _⟩ => ⟨S1x2, .f32⟩
  | .local _ .vmem, ⟨22, _⟩ => ⟨S10000x2, .f32⟩
  | .local _ .vmem, ⟨23, _⟩ => ⟨S10000x2, .f32⟩
  | _, _ => ⟨S250000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_10 : Ref sig .tc := ⟨.hbm, 79, rfl⟩
abbrev main_v47 : Ref sig .tc := ⟨.hbm, 80, rfl⟩
abbrev main_v48 : Ref sig .tc := ⟨.hbm, 81, rfl⟩
abbrev main_c_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_cst_14 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_16 : Ref sig .tc := ⟨.hbm, 104, rfl⟩
abbrev main_v66 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_cst_19 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_v84 : Ref sig .tc := ⟨.hbm, 127, rfl⟩
abbrev main_v85 : Ref sig .tc := ⟨.hbm, 128, rfl⟩
abbrev main_c_21 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_25 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_26 : Ref sig .tc := ⟨.hbm, 151, rfl⟩
abbrev main_v103 : Ref sig .tc := ⟨.hbm, 152, rfl⟩
abbrev main_v104 : Ref sig .tc := ⟨.hbm, 153, rfl⟩
abbrev main_c_27 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_28 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_29 : Ref sig .tc := ⟨.hbm, 164, rfl⟩
abbrev main_v113 : Ref sig .tc := ⟨.hbm, 165, rfl⟩
abbrev main_cst_30 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_31 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_32 : Ref sig .tc := ⟨.hbm, 177, rfl⟩
abbrev main_v123 : Ref sig .tc := ⟨.hbm, 178, rfl⟩
abbrev main_v124 : Ref sig .tc := ⟨.hbm, 179, rfl⟩
abbrev main_c_33 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_34 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_35 : Ref sig .tc := ⟨.hbm, 190, rfl⟩
abbrev main_v133 : Ref sig .tc := ⟨.hbm, 191, rfl⟩
abbrev main_cst_36 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_37 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S250000x128_S250000x64_0_0 : S250000x128.Slices ![0, 0] S250000x64
  slices_S250000x128_S250000x64_0_64 : S250000x128.Slices ![0, 64] S250000x64
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S500000 : S_.BroadcastsInDim S500000 (![] : Fin 0 → Fin S500000.rank)
  bcast_S500000_S500000x1_0 : S500000.BroadcastsInDim S500000x1 (![0] : Fin 1 → Fin S500000x1.rank)
  bcast_S_S250000x64 : S_.BroadcastsInDim S250000x64 (![] : Fin 0 → Fin S250000x64.rank)
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x64_0_1 : S250000x1.BroadcastsInDim S250000x64 (![0, 1] : Fin 2 → Fin S250000x64.rank)
  concatenates_S64x2_S64x2_S64x4_d1 : Shape.Concatenates [S64x2, S64x2] S64x4 1
  concatenates_S2_S2_S4_d0 : Shape.Concatenates [S2, S2] S4 0
  shapeCasts_S4_S1x4 : S4.ShapeCasts S1x4
  shapeCasts_S10000x64_S10000x64 : S10000x64.ShapeCasts S10000x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  slices_S250000x4_S250000x2_0_0 : S250000x4.Slices ![0, 0] S250000x2
  slices_S250000x4_S250000x2_0_2 : S250000x4.Slices ![0, 2] S250000x2
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  bcast_S_S250000x2 : S_.BroadcastsInDim S250000x2 (![] : Fin 0 → Fin S250000x2.rank)
  bcast_S250000x1_S250000x2_0_1 : S250000x1.BroadcastsInDim S250000x2 (![0, 1] : Fin 2 → Fin S250000x2.rank)
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S250000x64_S500000x1_S500000x64_1_0_n_n_0_1_164_wf : GatherDims.WF S250000x64 S500000x1 S500000x64 [1] [0] [] [0] [] 1 ![1, 64]
  scatter_S250000x64_S500000x1_S500000x64_1_0_0_1_wf : ScatterDims.WF S250000x64 S500000x1 S500000x64 [1] [0] [0] 1
  scatter_S250000_S500000x1_S500000_n_0_0_1_wf : ScatterDims.WF S250000 S500000x1 S500000 [] [0] [0] 1
  dot_S10000x64_S64x4_S10000x4_1_0_0_1_n_n_wf : DotDims.WF S10000x64 S64x4 S10000x4 [1] [0] [0] [1] [] []
  dot_S10000x64_S64x2_S10000x2_1_0_0_1_n_n_wf : DotDims.WF S10000x64 S64x2 S10000x2 [1] [0] [0] [1] [] []
  gather_S250000x2_S500000x1_S500000x2_1_0_n_n_0_1_12_wf : GatherDims.WF S250000x2 S500000x1 S500000x2 [1] [0] [] [0] [] 1 ![1, 2]
  scatter_S250000x2_S500000x1_S500000x2_1_0_0_1_wf : ScatterDims.WF S250000x2 S500000x1 S500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S250000x128.size a
  hwx0_0 : ∀ i : grid0.Coords, EltTy.bits .f32 = 32 ∨ (Rect.block (s := S250000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S250000x128.size a
  hwx0_3 : ∀ i : grid0.Coords, EltTy.bits .f32 = 32 ∨ (Rect.block (s := S250000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S250000x128.size a
  hwx1_0 : ∀ i : grid1.Coords, EltTy.bits .f32 = 32 ∨ (Rect.block (s := S250000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S250000x64.size a
  hwx1_3 : ∀ i : grid1.Coords, EltTy.bits .f32 = 32 ∨ (Rect.block (s := S250000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S250000x64.size a
  hwx2_0 : ∀ i : grid2.Coords, EltTy.bits .f32 = 32 ∨ (Rect.block (s := S250000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4.size a ≤ S64x4.size a
  hwx2_1 : ∀ i : grid2.Coords, EltTy.bits .f32 = 32 ∨ (Rect.block (s := S64x4) S64x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x4.size a ≤ S250000x4.size a
  hwx2_3 : ∀ i : grid2.Coords, EltTy.bits .f32 = 32 ∨ (Rect.block (s := S250000x4) S10000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S250000x64.size a
  hwx3_0 : ∀ i : grid3.Coords, EltTy.bits .f32 = 32 ∨ (Rect.block (s := S250000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x2.size a ≤ S250000x2.size a
  hwx3_3 : ∀ i : grid3.Coords, EltTy.bits .f32 = 32 ∨ (Rect.block (s := S250000x2) S10000x2.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S250000x64_S500000x1_S500000x64_1_0_n_n_0_1_164 : GatherDims S250000x64 S500000x1 S500000x64 where
  offsetDims := [1]
  collapsedSliceDims := [0]
  operandBatchingDims := []
  startIndicesBatchingDims := []
  startIndexMap := [0]
  indexVectorDim := 1
  sliceSizes := ![1, 64]
  wf := gather_S250000x64_S500000x1_S500000x64_1_0_n_n_0_1_164_wf
def scatter_S250000x64_S500000x1_S500000x64_1_0_0_1 : ScatterDims S250000x64 S500000x1 S500000x64 where
  updateWindowDims := [1]
  insertedWindowDims := [0]
  scatterDimsToOperandDims := [0]
  indexVectorDim := 1
  wf := scatter_S250000x64_S500000x1_S500000x64_1_0_0_1_wf
def scatter_S250000_S500000x1_S500000_n_0_0_1 : ScatterDims S250000 S500000x1 S500000 where
  updateWindowDims := []
  insertedWindowDims := [0]
  scatterDimsToOperandDims := [0]
  indexVectorDim := 1
  wf := scatter_S250000_S500000x1_S500000_n_0_0_1_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S250000x2_S500000x1_S500000x2_1_0_n_n_0_1_12 : GatherDims S250000x2 S500000x1 S500000x2 where
  offsetDims := [1]
  collapsedSliceDims := [0]
  operandBatchingDims := []
  startIndicesBatchingDims := []
  startIndexMap := [0]
  indexVectorDim := 1
  sliceSizes := ![1, 2]
  wf := gather_S250000x2_S500000x1_S500000x2_1_0_n_n_0_1_12_wf
def scatter_S250000x2_S500000x1_S500000x2_1_0_0_1 : ScatterDims S250000x2 S500000x1 S500000x2 where
  updateWindowDims := [1]
  insertedWindowDims := [0]
  scatterDimsToOperandDims := [0]
  indexVectorDim := 1
  wf := scatter_S250000x2_S500000x1_S500000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S64x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S10000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S10000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S250000x128 : Shape := ⟨2, ![250000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S500000 : Shape := ⟨1, ![500000]⟩
abbrev S250000x64 : Shape := ⟨2, ![250000, 64]⟩
abbrev S1x64 : Shape := ⟨2, ![1, 64]⟩
abbrev S_ : Shape := ⟨0, ![]⟩
abbrev S500000x1 : Shape := ⟨2, ![500000, 1]⟩
abbrev S500000x64 : Shape := ⟨2, ![500000, 64]⟩
abbrev S250000 : Shape := ⟨1, ![250000]⟩
abbrev S250000x1 : Shape := ⟨2, ![250000, 1]⟩
abbrev S250000x2 : Shape := ⟨2, ![250000, 2]⟩
abbrev S1x2 : Shape := ⟨2, ![1, 2]⟩
abbrev S500000x2 : Shape := ⟨2, ![500000, 2]⟩

abbrev nBuf : Space → Nat
  | .hbm => 210
  | .vmem => 0
  | .smem => 0
  | _ => 0

abbrev hbmTy0_0 (i : Nat) : BufTy := match i % 128 with
  | 0 => ⟨S250000x128, .f32⟩
  | 1 => ⟨S250000x128, .f32⟩
  | 2 => ⟨S128x64, .f32⟩
  | 3 => ⟨S64, .f32⟩
  | 4 => ⟨S128x64, .f32⟩
  | 5 => ⟨S64, .f32⟩
  | 6 => ⟨S128x64, .f32⟩
  | 7 => ⟨S64, .f32⟩
  | 8 => ⟨S64x2, .f32⟩
  | 9 => ⟨S2, .f32⟩
  | 10 => ⟨S64x2, .f32⟩
  | 11 => ⟨S2, .f32⟩
  | 12 => ⟨S64x2, .f32⟩
  | 13 => ⟨S2, .f32⟩
  | 14 => ⟨S500000, .i32⟩
  | 15 => ⟨S500000, .i32⟩
  | 16 => ⟨S500000, .i32⟩
  | 17 => ⟨S500000, .i32⟩
  | 18 => ⟨S500000, .i32⟩
  | 19 => ⟨S500000, .i32⟩
  | 20 => ⟨S250000x64, .f32⟩
  | 21 => ⟨S1x64, .f32⟩
  | 22 => ⟨S250000x64, .f32⟩
  | 23 => ⟨S250000x64, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x64, .f32⟩
  | 33 => ⟨S_, .f32⟩
  | 34 => ⟨S250000x64, .f32⟩
  | 35 => ⟨S500000x1, .i32⟩
  | 36 => ⟨S250000x64, .f32⟩
  | 37 => ⟨S_, .f32⟩
  | 38 => ⟨S500000, .f32⟩
  | 39 => ⟨S_, .f32⟩
  | 40 => ⟨S250000, .f32⟩
  | 41 => ⟨S500000x1, .i32⟩
  | 42 => ⟨S250000, .f32⟩
  | 43 => ⟨S_, .f32⟩
  | 44 => ⟨S250000, .f32⟩
  | 45 => ⟨S250000, .f32⟩
  | 46 => ⟨S250000x1, .f32⟩
  | 47 => ⟨S250000x64, .f32⟩
  | 48 => ⟨S250000x64, .f32⟩
  | 49 => ⟨S250000x64, .f32⟩
  | 50 => ⟨S1x64, .f32⟩
  | 51 => ⟨S250000x64, .f32⟩
  | 52 => ⟨S250000x64, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x64, .f32⟩
  | 62 => ⟨S_, .f32⟩
  | 63 => ⟨S250000x64, .f32⟩
  | 64 => ⟨S500000x1, .i32⟩
  | 65 => ⟨S250000x64, .f32⟩
  | 66 => ⟨S_, .f32⟩
  | 67 => ⟨S500000, .f32⟩
  | 68 => ⟨S_, .f32⟩
  | 69 => ⟨S250000, .f32⟩
  | 70 => ⟨S500000x1, .i32⟩
  | 71 => ⟨S250000, .f32⟩
  | 72 => ⟨S_, .f32⟩
  | 73 => ⟨S250000, .f32⟩
  | 74 => ⟨S250000, .f32⟩
  | 75 => ⟨S250000x1, .f32⟩
  | 76 => ⟨S250000x64, .f32⟩
  | 77 => ⟨S250000x64, .f32⟩
  | 78 => ⟨S250000x64, .f32⟩
  | 79 => ⟨S250000x64, .f32⟩
  | 80 => ⟨S1x64, .f32⟩
  | 81 => ⟨S250000x64, .f32⟩
  | 82 => ⟨S250000x64, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x64, .f32⟩
  | 92 => ⟨S_, .f32⟩
  | 93 => ⟨S250000x64, .f32⟩
  | 94 => ⟨S500000x1, .i32⟩
  | 95 => ⟨S250000x64, .f32⟩
  | 96 => ⟨S_, .f32⟩
  | 97 => ⟨S500000, .f32⟩
  | 98 => ⟨S_, .f32⟩
  | 99 => ⟨S250000, .f32⟩
  | 100 => ⟨S500000x1, .i32⟩
  | 101 => ⟨S250000, .f32⟩
  | 102 => ⟨S_, .f32⟩
  | 103 => ⟨S250000, .f32⟩
  | 104 => ⟨S250000, .f32⟩
  | 105 => ⟨S250000x1, .f32⟩
  | 106 => ⟨S250000x64, .f32⟩
  | 107 => ⟨S250000x64, .f32⟩
  | 108 => ⟨S_, .f32⟩
  | 109 => ⟨S250000x64, .f32⟩
  | 110 => ⟨S250000x64, .i1⟩
  | 111 => ⟨S_, .f32⟩
  | 112 => ⟨S250000x64, .f32⟩
  | 113 => ⟨S250000x64, .f32⟩
  | 114 => ⟨S250000x64, .f32⟩
  | 115 => ⟨S_, .f32⟩
  | 116 => ⟨S250000x64, .f32⟩
  | 117 => ⟨S250000x64, .i1⟩
  | 118 => ⟨S_, .f32⟩
  | 119 => ⟨S250000x64, .f32⟩
  | 120 => ⟨S250000x64, .f32⟩
  | 121 => ⟨S250000x64, .f32⟩
  | 122 => ⟨S250000x2, .f32⟩
  | 123 => ⟨S1x2, .f32⟩
  | 124 => ⟨S250000x2, .f32⟩
  | 125 => ⟨S250000x2, .f32⟩
  | 126 => ⟨S_, .i32⟩
  | 127 => ⟨S500000, .i32⟩
  | _ => ⟨S250000x128, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x2, .f32⟩
  | 7 => ⟨S_, .f32⟩
  | 8 => ⟨S250000x2, .f32⟩
  | 9 => ⟨S500000x1, .i32⟩
  | 10 => ⟨S250000x2, .f32⟩
  | 11 => ⟨S_, .f32⟩
  | 12 => ⟨S500000, .f32⟩
  | 13 => ⟨S_, .f32⟩
  | 14 => ⟨S250000, .f32⟩
  | 15 => ⟨S500000x1, .i32⟩
  | 16 => ⟨S250000, .f32⟩
  | 17 => ⟨S_, .f32⟩
  | 18 => ⟨S250000, .f32⟩
  | 19 => ⟨S250000, .f32⟩
  | 20 => ⟨S250000x1, .f32⟩
  | 21 => ⟨S250000x2, .f32⟩
  | 22 => ⟨S250000x2, .f32⟩
  | 23 => ⟨S250000x2, .f32⟩
  | 24 => ⟨S1x2, .f32⟩
  | 25 => ⟨S250000x2, .f32⟩
  | 26 => ⟨S250000x2, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x2, .f32⟩
  | 36 => ⟨S_, .f32⟩
  | 37 => ⟨S250000x2, .f32⟩
  | 38 => ⟨S500000x1, .i32⟩
  | 39 => ⟨S250000x2, .f32⟩
  | 40 => ⟨S_, .f32⟩
  | 41 => ⟨S500000, .f32⟩
  | 42 => ⟨S_, .f32⟩
  | 43 => ⟨S250000, .f32⟩
  | 44 => ⟨S500000x1, .i32⟩
  | 45 => ⟨S250000, .f32⟩
  | 46 => ⟨S_, .f32⟩
  | 47 => ⟨S250000, .f32⟩
  | 48 => ⟨S250000, .f32⟩
  | 49 => ⟨S250000x1, .f32⟩
  | 50 => ⟨S250000x2, .f32⟩
  | 51 => ⟨S250000x2, .f32⟩
  | 52 => ⟨S250000x2, .f32⟩
  | 53 => ⟨S250000x2, .f32⟩
  | 54 => ⟨S1x2, .f32⟩
  | 55 => ⟨S250000x2, .f32⟩
  | 56 => ⟨S250000x2, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x2, .f32⟩
  | 66 => ⟨S_, .f32⟩
  | 67 => ⟨S250000x2, .f32⟩
  | 68 => ⟨S500000x1, .i32⟩
  | 69 => ⟨S250000x2, .f32⟩
  | 70 => ⟨S_, .f32⟩
  | 71 => ⟨S500000, .f32⟩
  | 72 => ⟨S_, .f32⟩
  | 73 => ⟨S250000, .f32⟩
  | 74 => ⟨S500000x1, .i32⟩
  | 75 => ⟨S250000, .f32⟩
  | 76 => ⟨S_, .f32⟩
  | 77 => ⟨S250000, .f32⟩
  | 78 => ⟨S250000, .f32⟩
  | 79 => ⟨S250000x1, .f32⟩
  | 80 => ⟨S250000x2, .f32⟩
  | 81 => ⟨S250000x2, .f32⟩
  | _ => ⟨S250000x128, .f32⟩

abbrev hbmTy (i : Nat) : BufTy := match i / 128 with
  | 0 => hbmTy0_0 i
  | 1 => hbmTy0_1 i
  | _ => ⟨S250000x128, .f32⟩

abbrev bufTy : (tb : Table) → Fin (tcTables nBuf tb) → BufTy
  | .hbm, ⟨i, _⟩ => hbmTy i
  | _, _ => ⟨S250000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_v70 : Ref sig .tc := ⟨.hbm, 109, rfl⟩
abbrev main_v71 : Ref sig .tc := ⟨.hbm, 110, rfl⟩
abbrev main_cst_17 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_v84 : Ref sig .tc := ⟨.hbm, 127, rfl⟩
abbrev main_v85 : Ref sig .tc := ⟨.hbm, 128, rfl⟩
abbrev main_c_21 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_25 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_26 : Ref sig .tc := ⟨.hbm, 155, rfl⟩
abbrev main_v107 : Ref sig .tc := ⟨.hbm, 156, rfl⟩
abbrev main_v108 : Ref sig .tc := ⟨.hbm, 157, rfl⟩
abbrev main_c_27 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_28 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_29 : Ref sig .tc := ⟨.hbm, 168, rfl⟩
abbrev main_v117 : Ref sig .tc := ⟨.hbm, 169, rfl⟩
abbrev main_cst_30 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_31 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_32 : Ref sig .tc := ⟨.hbm, 185, rfl⟩
abbrev main_v131 : Ref sig .tc := ⟨.hbm, 186, rfl⟩
abbrev main_v132 : Ref sig .tc := ⟨.hbm, 187, rfl⟩
abbrev main_c_33 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_34 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_35 : Ref sig .tc := ⟨.hbm, 198, rfl⟩
abbrev main_v141 : Ref sig .tc := ⟨.hbm, 199, rfl⟩
abbrev main_cst_36 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_37 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S250000x64 : S_.BroadcastsInDim S250000x64 (![] : Fin 0 → Fin S250000x64.rank)
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x64_0_1 : S250000x1.BroadcastsInDim S250000x64 (![0, 1] : Fin 2 → Fin S250000x64.rank)
  bcast_S2_S1x2_1 : S2.BroadcastsInDim S1x2 (![1] : Fin 1 → Fin S1x2.rank)
  bcast_S1x2_S250000x2_0_1 : S1x2.BroadcastsInDim S250000x2 (![0, 1] : Fin 2 → Fin S250000x2.rank)
  bcast_S_S250000x2 : S_.BroadcastsInDim S250000x2 (![] : Fin 0 → Fin S250000x2.rank)
  bcast_S250000x1_S250000x2_0_1 : S250000x1.BroadcastsInDim S250000x2 (![0, 1] : Fin 2 → Fin S250000x2.rank)
  dot_S250000x128_S128x64_S250000x64_1_0_0_1_n_n_wf : DotDims.WF S250000x128 S128x64 S250000x64 [1] [0] [0] [1] [] []
  gather_S250000x64_S500000x1_S500000x64_1_0_n_n_0_1_164_wf : GatherDims.WF S250000x64 S500000x1 S500000x64 [1] [0] [] [0] [] 1 ![1, 64]
  scatter_S250000x64_S500000x1_S500000x64_1_0_0_1_wf : ScatterDims.WF S250000x64 S500000x1 S500000x64 [1] [0] [0] 1
  scatter_S250000_S500000x1_S500000_n_0_0_1_wf : ScatterDims.WF S250000 S500000x1 S500000 [] [0] [0] 1
  dot_S250000x64_S64x2_S250000x2_1_0_0_1_n_n_wf : DotDims.WF S250000x64 S64x2 S250000x2 [1] [0] [0] [1] [] []
  gather_S250000x2_S500000x1_S500000x2_1_0_n_n_0_1_12_wf : GatherDims.WF S250000x2 S500000x1 S500000x2 [1] [0] [] [0] [] 1 ![1, 2]
  scatter_S250000x2_S500000x1_S500000x2_1_0_0_1_wf : ScatterDims.WF S250000x2 S500000x1 S500000x2 [1] [0] [0] 1

variable [Facts₀]

def dot_S250000x128_S128x64_S250000x64_1_0_0_1_n_n : DotDims S250000x128 S128x64 S250000x64 where
  lhsContracting := [1]
  rhsContracting := [0]
  lhsNonContracting := [0]
  rhsNonContracting := [1]
  lhsBatch := []
  rhsBatch := []
  wf := dot_S250000x128_S128x64_S250000x64_1_0_0_1_n_n_wf
def gather_S250000x64_S500000x1_S500000x64_1_0_n_n_0_1_164 : GatherDims S250000x64 S500000x1 S500000x64 where
  offsetDims := [1]
  collapsedSliceDims := [0]
  operandBatchingDims := []
  startIndicesBatchingDims := []
  startIndexMap := [0]
  indexVectorDim := 1
  sliceSizes := ![1, 64]
  wf := gather_S250000x64_S500000x1_S500000x64_1_0_n_n_0_1_164_wf
def scatter_S250000x64_S500000x1_S500000x64_1_0_0_1 : ScatterDims S250000x64 S500000x1 S500000x64 where
  updateWindowDims := [1]
  insertedWindowDims := [0]
  scatterDimsToOperandDims := [0]
  indexVectorDim := 1
  wf := scatter_S250000x64_S500000x1_S500000x64_1_0_0_1_wf
def scatter_S250000_S500000x1_S500000_n_0_0_1 : ScatterDims S250000 S500000x1 S500000 where
  updateWindowDims := []
  insertedWindowDims := [0]
  scatterDimsToOperandDims := [0]
  indexVectorDim := 1
  wf := scatter_S250000_S500000x1_S500000_n_0_0_1_wf
def dot_S250000x64_S64x2_S250000x2_1_0_0_1_n_n : DotDims S250000x64 S64x2 S250000x2 where
  lhsContracting := [1]
  rhsContracting := [0]
  lhsNonContracting := [0]
  rhsNonContracting := [1]
  lhsBatch := []
  rhsBatch := []
  wf := dot_S250000x64_S64x2_S250000x2_1_0_0_1_n_n_wf
def gather_S250000x2_S500000x1_S500000x2_1_0_n_n_0_1_12 : GatherDims S250000x2 S500000x1 S500000x2 where
  offsetDims := [1]
  collapsedSliceDims := [0]
  operandBatchingDims := []
  startIndicesBatchingDims := []
  startIndexMap := [0]
  indexVectorDim := 1
  sliceSizes := ![1, 2]
  wf := gather_S250000x2_S500000x1_S500000x2_1_0_n_n_0_1_12_wf
def scatter_S250000x2_S500000x1_S500000x2_1_0_0_1 : ScatterDims S250000x2 S500000x1 S500000x2 where
  updateWindowDims := [1]
  insertedWindowDims := [0]
  scatterDimsToOperandDims := [0]
  indexVectorDim := 1
  wf := scatter_S250000x2_S500000x1_S500000x2_1_0_0_1_wf

class Facts : Prop extends Facts₀ where

variable [Facts]
-- ==== Proof.KernelRun.lean ====
/-
  The idealized kernel program's run with its four results named.

  The program is thirteen segments: host stretches and four tiled dense layers. Its buffers' contents at the end of
  the last segment are a fold of the segments over the launch memory; every weakly fair execution ends with each
  unscoped buffer at that fold. Here the statement keeps the four result buffers (the two class scores and the two
  hidden feature arrays) at the fold's value, beside the arguments ending as launched.
-/
import proofs.«171182_j33397665693713_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the four result buffers at the
    last boundary's contents and every argument array as launched. -/
theorem run_named : θ_run defs (onTc (τ := τ) (main (F := F))) ⟨m, fun _ => 0, ρ⟩ (fun r => ∀ c : Dev nD,
      r.2.mem ((c.tc : Thread nD τ).loc main_v122) = W13 m ρ c (Proc.devRef .tc main_v122)
      ∧       r.2.mem ((c.tc : Thread nD τ).loc main_v141) = W13 m ρ c (Proc.devRef .tc main_v141)
      ∧       r.2.mem ((c.tc : Thread nD τ).loc main_v70) = W13 m ρ c (Proc.devRef .tc main_v70)
      ∧       r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v122 (by decide)),
       h c _ (mem_uc main_v141 (by decide)),
       h c _ (mem_uc main_v70 (by decide)),
       h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c)⟩)

end Cert.KernelIdeal.Named

end
-- ==== Proof.Walk.lean ====
/-
  Reading the kernel program's buffers at a segment boundary back to the launch memory.

  The contents at each boundary are a fold: a host stretch rewrites the buffers its operations write and keeps the
  rest; a tiled dense layer rewrites its output array and keeps every other buffer, its own input arrays included.
  The lemmas below say so one boundary at a time, in the form a rewriting pass uses: a buffer that is none of a
  layer's four arrays is as it was when the layer was entered; the layer's output array is what its grid points
  wrote back; an input array of the layer is as it was when the layer was entered.
-/
import proofs.«171182_j33397665693713_1_alg».proof.Proof.Gen.KernelIdeal.Frame
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- A buffer that is none of the first layer-1 call's arrays is, after the call, as it was before. -/
theorem W2_keep (c : Dev nD) (b : Ref sig .tc) (hb : ∀ w, Pipeline.arrRef spec0 w ≠ b) :
    W2 m ρ c (no_index (Proc.devRef .tc b)) = W1 m ρ c (Proc.devRef .tc b) := W2_of_ne m ρ c b hb
/-- The same for the second layer-1 call. -/
theorem W4_keep (c : Dev nD) (b : Ref sig .tc) (hb : ∀ w, Pipeline.arrRef spec1 w ≠ b) :
    W4 m ρ c (no_index (Proc.devRef .tc b)) = W3 m ρ c (Proc.devRef .tc b) := W4_of_ne m ρ c b hb
/-- The same for the first layer-2 call. -/
theorem W10_keep (c : Dev nD) (b : Ref sig .tc) (hb : ∀ w, Pipeline.arrRef spec2 w ≠ b) :
    W10 m ρ c (no_index (Proc.devRef .tc b)) = W9 m ρ c (Proc.devRef .tc b) := W10_of_ne m ρ c b hb
/-- The same for the second layer-2 call. -/
theorem W12_keep (c : Dev nD) (b : Ref sig .tc) (hb : ∀ w, Pipeline.arrRef spec3 w ≠ b) :
    W12 m ρ c (no_index (Proc.devRef .tc b)) = W11 m ρ c (Proc.devRef .tc b) := W12_of_ne m ρ c b hb

/-- Each call's output array holds, after the call, what the grid points' write-backs left. -/
theorem W2_out (c : Dev nD) : W2 m ρ c (no_index (Proc.devRef .tc main_v3)) = (dat0 (V1 m ρ) c).arrAt 3 cfg0.N := W2_arr m ρ c 3
theorem W4_out (c : Dev nD) : W4 m ρ c (no_index (Proc.devRef .tc main_v7)) = (dat1 (V3 m ρ) c).arrAt 3 cfg1.N := W4_arr m ρ c 3
theorem W10_out (c : Dev nD) : W10 m ρ c (no_index (Proc.devRef .tc main_v79)) = (dat2 (V9 m ρ) c).arrAt 3 cfg2.N := W10_arr m ρ c 3
theorem W12_out (c : Dev nD) : W12 m ρ c (no_index (Proc.devRef .tc main_v83)) = (dat3 (V11 m ρ) c).arrAt 3 cfg3.N := W12_arr m ρ c 3

/-- The hidden user features are an input array of the first layer-2 call, which leaves them as entered. -/
theorem W10_in (c : Dev nD) : W10 m ρ c (no_index (Proc.devRef .tc main_v70)) = W9 m ρ c (Proc.devRef .tc main_v70) :=
  (W10_arr m ρ c 0).trans (((dat2 (V9 m ρ) c).arrAt_in 0 rfl _).trans (A_eq2 (V9 m ρ) c 0))
/-- The hidden item features are an input array of the second layer-2 call, which leaves them as entered. -/
theorem W12_in (c : Dev nD) : W12 m ρ c (no_index (Proc.devRef .tc main_v75)) = W11 m ρ c (Proc.devRef .tc main_v75) :=
  (W12_arr m ρ c 0).trans (((dat3 (V11 m ρ) c).arrAt_in 0 rfl _).trans (A_eq3 (V11 m ρ) c 0))

end Cert.KernelIdeal.Named

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«171182_j33397665693713_1_alg».proof.Proof.LibDenseLayer
import proofs.«171182_j33397665693713_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibRowBias.lean ====
/-
  The two dense steps of a graph-convolution layer on the extended reals, in the spellings a vector unit and a host
  program give them.

  `dense x w b` is `x · w + b` with the bias `b` a function of the column. A vector unit that is handed the bias as
  a `[1, N]` row forms it as a matrix product into a zero accumulator plus the row broadcast over the rows
  (`vec_dense_row`); its two product operands may first have passed through changes of float format or of layout that
  leave every entry as it was, so the lemma takes operands that agree with `x` and `w` entry by entry. The host program
  forms the product by a general dot product and adds the bias vector broadcast over the rows (`host_dense`); with
  the zero row for a bias the layer is the bare product (`dense_zero_row`: `s + 0 = s` on the extended reals).

  `reluB a b` is `max (a + b) 0`, the bias added to every row and the rectifier applied, again in both spellings
  (`vec_reluB`, `host_reluB`). A `[1, N]` row that is a bias vector reshaped is, as a function of the column, that vector
  (`rowOf_cast`).
-/
import proofs.«171182_j33397665693713_1_alg».proof.Proof.LibDenseLayer
import proofs.«171182_j33397665693713_1_alg».proof.Proof.LibPlainMatmul
import proofs.«171182_j33397665693713_1_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRowBias

open Idealize.ShloMosaic Idealize.ShloMosaic.ValueIdx Cert.DenseLayer Cert.LayerForms

/-- A `[1, N]` row as a function of the column. -/
def rowOf {N : ℕ} (b : (⟨2, ![1, N]⟩ : Shape).Idx → EReal) : Fin N → EReal := fun q => b (ix2 (0 : Fin 1) q)

/-- A bias added to every row, then the rectifier: entry `(p, q)` is `max (a (p, q) + b q) 0`. -/
def reluB {M N : ℕ} (a : (⟨2, ![M, N]⟩ : Shape).Idx → EReal) (b : Fin N → EReal) : (⟨2, ![M, N]⟩ : Shape).Idx → EReal :=
  fun i => max (a i + b (i 1)) 0

theorem reluB_ix2 {M N : ℕ} (a : (⟨2, ![M, N]⟩ : Shape).Idx → EReal) (b : Fin N → EReal) (p : Fin M) (q : Fin N) :
    reluB a b (ix2 p q) = max (a (ix2 p q) + b q) 0 := rfl

/-- An entry of a dense layer on a block of rows, a copy of the weights and a copy of the bias is the entry of the dense
    layer on the whole arrays in the row the block's row came from: the entry depends on that one row of the operand, on
    one column of the weights and on one entry of the bias. -/
theorem dense_block_apply {m M K N : ℕ} (xb : (⟨2, ![m, K]⟩ : Shape).Idx → EReal) (x : (⟨2, ![M, K]⟩ : Shape).Idx → EReal)
    (wb w : (⟨2, ![K, N]⟩ : Shape).Idx → EReal) (bb b : Fin N → EReal) (p : Fin m) (P : Fin M) (q : Fin N)
    (hx : ∀ k : Fin K, xb (ix2 p k) = x (ix2 P k)) (hw : ∀ k : Fin K, wb (ix2 k q) = w (ix2 k q)) (hb : bb q = b q) :
    dense xb wb bb (ix2 p q) = dense x w b (ix2 P q) := by
  show (∑ k : Fin K, xb (ix2 p k) * wb (ix2 k q)) + bb q = (∑ k : Fin K, x (ix2 P k) * w (ix2 k q)) + b q
  rw [hb]
  exact congrArg (· + b q) (Finset.sum_congr rfl fun k _ => by rw [hx, hw])

/-- The same for the bias-and-rectifier step: its entry `(p, q)` depends on entry `(p, q)` of the operand and on the bias
    at `q` only. -/
theorem reluB_block_apply {m M N : ℕ} (ab : (⟨2, ![m, N]⟩ : Shape).Idx → EReal) (a : (⟨2, ![M, N]⟩ : Shape).Idx → EReal)
    (bb b : Fin N → EReal) (p : Fin m) (P : Fin M) (q : Fin N)
    (ha : ab (ix2 p q) = a (ix2 P q)) (hb : bb q = b q) :
    reluB ab bb (ix2 p q) = reluB a b (ix2 P q) := by
  show max (ab (ix2 p q) + bb q) 0 = max (a (ix2 P q) + b q) 0
  rw [ha, hb]

/-- A bias vector reshaped to a `[1, N]` row is, column by column, the vector. -/
theorem rowOf_cast {N : ℕ} (b : FVec Ideal ⟨1, ![N]⟩ .f32) (hc : (⟨1, ![N]⟩ : Shape).ShapeCasts ⟨2, ![1, N]⟩) :
    rowOf (shapeCast ⟨2, ![1, N]⟩ b hc) = colBias b := by
  funext q
  show shapeCast ⟨2, ![1, N]⟩ b hc (ix2 (0 : Fin 1) q) = b (ix1 q)
  rw [shapeCast_a_1a_apply]

/-- The layer as a vector unit spells it, the bias a `[1, N]` row, the product's operands any arrays that agree entry by
    entry with `x` and `w`. -/
theorem vec_dense_row {M K N : ℕ} (D : DotDims ⟨2, ![M, K]⟩ ⟨2, ![K, N]⟩ ⟨2, ![M, N]⟩) (hD : D = DotDims.plain M K N)
    (prec : Option ContractPrecision) {φ₁ φ₂ : FTy} (x' : FVec Ideal ⟨2, ![M, K]⟩ φ₁) (w' : FVec Ideal ⟨2, ![K, N]⟩ φ₂)
    (x : (⟨2, ![M, K]⟩ : Shape).Idx → EReal) (w : (⟨2, ![K, N]⟩ : Shape).Idx → EReal)
    (hx : ∀ i, x' i = x i) (hw : ∀ i, w' i = w i)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x' w' (constant ⟨2, ![M, N]⟩ .f32 0x00000000#32))
        (broadcastTo ⟨2, ![M, N]⟩ (shapeCast ⟨2, ![1, N]⟩ b hc) hb)
      = dense x w (rowOf b) := by
  funext i
  obtain ⟨p, q, rfl⟩ : ∃ (p : Fin M) (q : Fin N), i = ix2 p q := ⟨i 0, i 1, eq_ix2 i⟩
  show FloatOps.matmul D prec x' w' (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  exact congrArg (· + b (ix2 (0 : Fin 1) q)) (Finset.sum_congr rfl fun k _ => by rw [hx, hw])

/-- The bias row and the rectifier as a vector unit spells them. -/
theorem vec_reluB {M N : ℕ} (a : FVec Ideal ⟨2, ![M, N]⟩ .f32) (b : FVec Ideal ⟨2, ![1, N]⟩ .f32)
    (hs : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluB a (rowOf b) := by
  funext i
  obtain ⟨p, q, rfl⟩ : ∃ (p : Fin M) (q : Fin N), i = ix2 p q := ⟨i 0, i 1, eq_ix2 i⟩
  show max (shapeCast ⟨2, ![M, N]⟩ a hs (ix2 p q) + broadcastTo ⟨2, ![M, N]⟩ (shapeCast ⟨2, ![1, N]⟩ b hc) hb (ix2 p q))
      (Ideal.ofBits .f32 0x00000000#32) = max (a (ix2 p q) + b (ix2 (0 : Fin 1) q)) 0
  rw [shapeCast_self, broadcastTo_1b_ab_apply, shapeCast_self, Ideal.ofBits_zero_f32]

/-- The layer as a host program spells it: `dense` of the bias vector. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) :=
  host_layer D hD prec x w b h1 h2

/-- With the zero row for a bias the layer is the bare product, which is the host's general dot product. -/
theorem dense_zero_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h0 : (⟨0, ![]⟩ : Shape).BroadcastsInDim ⟨2, ![1, N]⟩ ![]) :
    dense x w (rowOf (broadcastInDim ⟨2, ![1, N]⟩ ![] h0 (constant (F := Ideal) ⟨0, ![]⟩ .f32 0x00000000#32)))
      = Host.dotGeneral D prec x w := by
  funext i
  obtain ⟨p, q, rfl⟩ : ∃ (p : Fin M) (q : Fin N), i = ix2 p q := ⟨i 0, i 1, eq_ix2 i⟩
  show (∑ k : Fin K, x (ix2 p k) * w (ix2 k q)) + Ideal.ofBits .f32 0x00000000#32
    = FloatOps.dotGeneral D prec .single x w (ix2 p q)
  rw [dotGeneral_plain_apply D hD, Ideal.ofBits_zero_f32, add_zero]

/-- A bias vector broadcast to a row along a new leading axis and that row broadcast over the rows, at `(p, q)`, is the
    vector at `q`. -/
theorem bcast_rows_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ => exact hq
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ => exact hq
  rw [e2, e1]

/-- The bias and the rectifier as a host program spells them. -/
theorem host_reluB {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluB a (colBias b) := by
  funext i
  obtain ⟨p, q, rfl⟩ : ∃ (p : Fin M) (q : Fin N), i = ix2 p q := ⟨i 0, i 1, eq_ix2 i⟩
  show max (a (ix2 p q) + broadcastInDim ⟨2, ![M, N]⟩ ![0, 1] h2 (broadcastInDim ⟨2, ![1, N]⟩ ![1] h1 b) (ix2 p q))
      (Ideal.ofBits .f32 0x00000000#32) = max (a (ix2 p q) + b (ix1 q)) 0
  rw [bcast_rows_apply, Ideal.ofBits_zero_f32]

end Cert.LibRowBias

end
-- ==== Proof.Region0.lean ====
/-
  Region 0: the output array after the run of a dense layer computed block of rows by block of rows.

  The grid has 25 points. Point `t` reads rows `10000·t … 10000·t + 9999` of the operand `x : [250000, 128]`, the whole
  weight matrix `w : [128, 128]` and the whole bias row `b : [1, 128]`, and writes the same rows of the result. What it writes
  is the matrix product of its block of rows with `w` into a zero accumulator plus the bias row broadcast over the rows:
  the dense layer `x · w + b` of the block. An entry `(p, q)` of a dense layer depends on row `p` of the operand only, so
  the block that point `t` writes is rows `10000·t …` of the dense layer of the whole arrays. Row `r` of the result lies in
  the block of point `r / 10000`, so the blocks cover the result, and the result array ends holding `x · w + b`.
-/
import proofs.«171182_j33397665693713_1_alg».proof.Proof.Gen.KernelIdeal.Frame
import proofs.«171182_j33397665693713_1_alg».proof.Proof.LibRowBias
import Idealize.ShloMosaic.Lib.Pipeline.Value

noncomputable section

namespace Cert.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.LibRowBias

variable (V : (c : Dev nD) → (b : Ref sig .tc) → Buf (Elt Ideal) ((c : Thread nD τ).loc b))

theorem zero_offsets0 : (![0, 0] : Fin 2 → Nat) = fun _ => 0 := funext fun a => by fin_cases a <;> rfl

/-- What a point stores is the dense layer of the blocks it loaded. -/
theorem payload0_dense (x0 : Vec Ideal S10000x128 .f32) (x1 : Vec Ideal S128x128 .f32) (x2 : Vec Ideal S1x128 .f32) :
    k0_pay1 x0 x1 x2 = dense x0 x1 (rowOf x2) := by
  unfold k0_pay1
  exact vec_dense_row dot_S10000x128_S128x128_S10000x128_1_0_0_1_n_n rfl (some .fp32) x0 (shapeCast S128x128 x1 shapeCasts_S128x128_S128x128) x0 x1
    (fun i => rfl) (fun i => congrFun (shapeCast_self x1 shapeCasts_S128x128_S128x128) i) x2 shapeCasts_S1x128_S1x128 broadcasts_S1x128_S10000x128

/-- The printed index maps, decided over the grid: the operand's and the result's block index along the rows is the
    point's number, every other block index is zero. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the dense layer of a block of rows, the whole weights and the whole bias row is the entry of the dense
    layer of the whole arrays, `10000 · n` rows further down. -/
theorem block_entry0 (x : S250000x128.Idx → EReal) (w : S128x128.Idx → EReal) (b : S1x128.Idx → EReal)
    (xb : S10000x128.Idx → EReal) (wb : S128x128.Idx → EReal) (bb : S1x128.Idx → EReal) (n : ℕ)
    (hx : ∀ (y : S10000x128.Idx) (i : S250000x128.Idx), (i 0).val = n * 10000 + (y 0).val → (i 1).val = (y 1).val → xb y = x i)
    (hw : ∀ y, wb y = w y) (hb : ∀ y, bb y = b y)
    (j : S10000x128.Idx) (i : S250000x128.Idx) (h0 : (i 0).val = n * 10000 + (j 0).val) (h1 : (i 1).val = (j 1).val) :
    dense xb wb (rowOf bb) j = dense x w (rowOf b) i := by
  obtain ⟨p, q, rfl⟩ : ∃ (p : Fin 10000) (q : Fin 128), j = ix2 p q := ⟨j 0, j 1, eq_ix2 j⟩
  obtain ⟨P, Q, rfl⟩ : ∃ (P : Fin 250000) (Q : Fin 128), i = ix2 P Q := ⟨i 0, i 1, eq_ix2 i⟩
  have hP : P.val = n * 10000 + p.val := h0
  obtain rfl : Q = q := Fin.ext h1
  exact dense_block_apply xb x wb w (rowOf bb) (rowOf b) p P Q (fun k => hx _ _ hP rfl) (fun k => hw _) (hb _)

/-- The operand's block at point `t` is rows `10000·t …` of the operand. -/
theorem rows_block0 (c : Dev nD) (t : Fin cfg0.N) (y : S10000x128.Idx) (i : S250000x128.Idx)
    (h0 : (i 0).val = t.val * 10000 + (y 0).val) (h1 : (i 1).val = (y 1).val) :
    iblk0 V c 0 t y = V c main_arg0 i := by
  obtain ⟨e0, e1, -⟩ := index_maps0 t
  show V c main_arg0 (((cfg0.win 0).blk t).view.emb y) = V c main_arg0 i
  refine congrArg _ ?_
  funext a; apply Fin.ext
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weights' block at every point is the whole weight matrix. -/
theorem weights_block0 (c : Dev nD) (t : Fin cfg0.N) (y : S128x128.Idx) : iblk0 V c 1 t y = V c main_v0 y := by
  obtain ⟨-, -, e2, e3, -⟩ := index_maps0 t
  show V c main_v0 (((cfg0.win 1).blk t).view.emb y) = V c main_v0 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at every point is the whole bias row. -/
theorem bias_block0 (c : Dev nD) (t : Fin cfg0.N) (y : S1x128.Idx) : iblk0 V c 2 t y = V c main_v2 y := by
  obtain ⟨-, -, -, -, e4, e5, -⟩ := index_maps0 t
  show V c main_v2 (((cfg0.win 2).blk t).view.emb y) = V c main_v2 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the dense layer of the arrays as the region finds them. -/
theorem written_block0 (c : Dev nD) (t : Fin cfg0.N) :
    (dat0 V c).flushed 3 t
      = ((cfg0.win 3).blk t).view.read (Elt Ideal) (dense (V c main_arg0) (V c main_v0) (rowOf (V c main_v2))) := by
  show (cfg0.win 3).cut (grid0.coords t) ((dat0 V c).after 3 t) = _
  rw [after0_3]
  unfold out0_3
  rw [View.canon_unit_zero zero_offsets0]
  simp only [View.ld_unit_zero (S := S10000x128) zero_offsets0, View.ld_unit_zero (S := S128x128) zero_offsets0,
    View.ld_unit_zero (S := S1x128) zero_offsets0]
  rw [payload0_dense]
  obtain ⟨-, -, -, -, -, -, e6, e7⟩ := index_maps0 t
  funext j
  show dense (iblk0 V c 0 t) (iblk0 V c 1 t) (rowOf (iblk0 V c 2 t)) j
    = dense (V c main_arg0) (V c main_v0) (rowOf (V c main_v2)) (((cfg0.win 3).blk t).view.emb j)
  refine block_entry0 (V c main_arg0) (V c main_v0) (V c main_v2) (iblk0 V c 0 t) (iblk0 V c 1 t) (iblk0 V c 2 t) t.val
    (fun y i h0 h1 => rows_block0 V c t y i h0 h1) (weights_block0 V c t) (bias_block0 V c t) j _ ?_ ?_
  · show win0_3.index t (0 : Fin 2) * 10000 + 1 * (j 0).val = t.val * 10000 + (j 0).val; omega
  · show win0_3.index t (1 : Fin 2) * 128 + 1 * (j 1).val = (j 1).val; omega

/-- An index of the result is in point `t`'s block iff each coordinate is in the block's range on its axis. -/
theorem mem_block0 (t : Fin cfg0.N) (i : S250000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v3).slice (win0_3.rect t)).set ↔ _
  rw [View.set_slice_whole, Rect.mem_set_unit]
  exact Iff.rfl

/-- Row `r` of the result is in the block of point `r / 10000`. -/
theorem blocks_cover0 (i : S250000x128.Idx) :
    ∃ t : Fin cfg0.N, (cfg0.win 3).flush t = true ∧ i ∈ ((cfg0.win 3).blk t).view.set := by
  have hi0 : (i 0).val < 250000 := (i 0).isLt
  have hi1 : (i 1).val < 128 := (i 1).isLt
  have hN : grid0.N = 25 := N_0
  obtain ⟨t, ht⟩ : ∃ t : Fin cfg0.N, t.val = (i 0).val / 10000 := ⟨⟨(i 0).val / 10000, by show _ < grid0.N; omega⟩, rfl⟩
  obtain ⟨-, -, -, -, -, -, e6, e7⟩ := index_maps0 t
  refine ⟨t, flush0_3 t, ?_⟩
  rw [mem_block0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The result array after the run is the dense layer of the operand, the weights and the bias row as the region
    finds them. -/
theorem region0_out (c : Dev nD) :
    (dat0 (F := Ideal) V c).arrAt 3 cfg0.N = dense (V c main_arg0) (V c main_v0) (rowOf (V c main_v2)) :=
  (dat0 V c).arrAt_eq_of_cover 3 _ (fun t _ => written_block0 V c t) blocks_cover0

end Cert.RegionValue

end
-- ==== Proof.Region1.lean ====
/-
  Region 1: the output array after the run of a dense layer computed block of rows by block of rows.

  The grid has 25 points. Point `t` reads rows `10000·t … 10000·t + 9999` of the operand `x : [250000, 128]`, the whole
  weight matrix `w : [128, 64]` and the whole bias row `b : [1, 64]`, and writes the same rows of the result. What it writes
  is the matrix product of its block of rows with `w` into a zero accumulator plus the bias row broadcast over the rows:
  the dense layer `x · w + b` of the block. An entry `(p, q)` of a dense layer depends on row `p` of the operand only, so
  the block that point `t` writes is rows `10000·t …` of the dense layer of the whole arrays. Row `r` of the result lies in
  the block of point `r / 10000`, so the blocks cover the result, and the result array ends holding `x · w + b`.
-/
import proofs.«171182_j33397665693713_1_alg».proof.Proof.Gen.KernelIdeal.Frame
import proofs.«171182_j33397665693713_1_alg».proof.Proof.LibRowBias
import Idealize.ShloMosaic.Lib.Pipeline.Value

noncomputable section

namespace Cert.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.LibRowBias

variable (V : (c : Dev nD) → (b : Ref sig .tc) → Buf (Elt Ideal) ((c : Thread nD τ).loc b))

theorem zero_offsets1 : (![0, 0] : Fin 2 → Nat) = fun _ => 0 := funext fun a => by fin_cases a <;> rfl

/-- What a point stores is the dense layer of the blocks it loaded. -/
theorem payload1_dense (x0 : Vec Ideal S10000x128 .f32) (x1 : Vec Ideal S128x64 .f32) (x2 : Vec Ideal S1x64 .f32) :
    k1_pay1 x0 x1 x2 = dense x0 x1 (rowOf x2) := by
  unfold k1_pay1
  exact vec_dense_row dot_S10000x128_S128x64_S10000x64_1_0_0_1_n_n rfl (some .fp32) x0 x1 x0 x1
    (fun i => rfl) (fun i => rfl) x2 shapeCasts_S1x64_S1x64 broadcasts_S1x64_S10000x64

/-- The printed index maps, decided over the grid: the operand's and the result's block index along the rows is the
    point's number, every other block index is zero. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the dense layer of a block of rows, the whole weights and the whole bias row is the entry of the dense
    layer of the whole arrays, `10000 · n` rows further down. -/
theorem block_entry1 (x : S250000x128.Idx → EReal) (w : S128x64.Idx → EReal) (b : S1x64.Idx → EReal)
    (xb : S10000x128.Idx → EReal) (wb : S128x64.Idx → EReal) (bb : S1x64.Idx → EReal) (n : ℕ)
    (hx : ∀ (y : S10000x128.Idx) (i : S250000x128.Idx), (i 0).val = n * 10000 + (y 0).val → (i 1).val = (y 1).val → xb y = x i)
    (hw : ∀ y, wb y = w y) (hb : ∀ y, bb y = b y)
    (j : S10000x64.Idx) (i : S250000x64.Idx) (h0 : (i 0).val = n * 10000 + (j 0).val) (h1 : (i 1).val = (j 1).val) :
    dense xb wb (rowOf bb) j = dense x w (rowOf b) i := by
  obtain ⟨p, q, rfl⟩ : ∃ (p : Fin 10000) (q : Fin 64), j = ix2 p q := ⟨j 0, j 1, eq_ix2 j⟩
  obtain ⟨P, Q, rfl⟩ : ∃ (P : Fin 250000) (Q : Fin 64), i = ix2 P Q := ⟨i 0, i 1, eq_ix2 i⟩
  have hP : P.val = n * 10000 + p.val := h0
  obtain rfl : Q = q := Fin.ext h1
  exact dense_block_apply xb x wb w (rowOf bb) (rowOf b) p P Q (fun k => hx _ _ hP rfl) (fun k => hw _) (hb _)

/-- The operand's block at point `t` is rows `10000·t …` of the operand. -/
theorem rows_block1 (c : Dev nD) (t : Fin cfg1.N) (y : S10000x128.Idx) (i : S250000x128.Idx)
    (h0 : (i 0).val = t.val * 10000 + (y 0).val) (h1 : (i 1).val = (y 1).val) :
    iblk1 V c 0 t y = V c main_arg1 i := by
  obtain ⟨e0, e1, -⟩ := index_maps1 t
  show V c main_arg1 (((cfg1.win 0).blk t).view.emb y) = V c main_arg1 i
  refine congrArg _ ?_
  funext a; apply Fin.ext
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The weights' block at every point is the whole weight matrix. -/
theorem weights_block1 (c : Dev nD) (t : Fin cfg1.N) (y : S128x64.Idx) : iblk1 V c 1 t y = V c main_arg6 y := by
  obtain ⟨-, -, e2, e3, -⟩ := index_maps1 t
  show V c main_arg6 (((cfg1.win 1).blk t).view.emb y) = V c main_arg6 y
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- The bias row's block at every point is the whole bias row. -/
theorem bias_block1 (c : Dev nD) (t : Fin cfg1.N) (y : S1x64.Idx) : iblk1 V c 2 t y = V c main_v6 y := by
  obtain ⟨-, -, -, -, e4, e5, -⟩ := index_maps1 t
  show V c main_v6 (((cfg1.win 2).blk t).view.emb y) = V c main_v6 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- What point `t` writes back is block `t` of the dense layer of the arrays as the region finds them. -/
theorem written_block1 (c : Dev nD) (t : Fin cfg1.N) :
    (dat1 V c).flushed 3 t
      = ((cfg1.win 3).blk t).view.read (Elt Ideal) (dense (V c main_arg1) (V c main_arg6) (rowOf (V c main_v6))) := by
  show (cfg1.win 3).cut (grid1.coords t) ((dat1 V c).after 3 t) = _
  rw [after1_3]
  unfold out1_3
  rw [View.canon_unit_zero zero_offsets1]
  simp only [View.ld_unit_zero (S := S10000x128) zero_offsets1, View.ld_unit_zero (S := S128x64) zero_offsets1,
    View.ld_unit_zero (S := S1x64) zero_offsets1]
  rw [payload1_dense]
  obtain ⟨-, -, -, -, -, -, e6, e7⟩ := index_maps1 t
  funext j
  show dense (iblk1 V c 0 t) (iblk1 V c 1 t) (rowOf (iblk1 V c 2 t)) j
    = dense (V c main_arg1) (V c main_arg6) (rowOf (V c main_v6)) (((cfg1.win 3).blk t).view.emb j)
  refine block_entry1 (V c main_arg1) (V c main_arg6) (V c main_v6) (iblk1 V c 0 t) (iblk1 V c 1 t) (iblk1 V c 2 t) t.val
    (fun y i h0 h1 => rows_block1 V c t y i h0 h1) (weights_block1 V c t) (bias_block1 V c t) j _ ?_ ?_
  · show win1_3.index t (0 : Fin 2) * 10000 + 1 * (j 0).val = t.val * 10000 + (j 0).val; omega
  · show win1_3.index t (1 : Fin 2) * 64 + 1 * (j 1).val = (j 1).val; omega

/-- An index of the result is in point `t`'s block iff each coordinate is in the block's range on its axis. -/
theorem mem_block1 (t : Fin cfg1.N) (i : S250000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v7).slice (win1_3.rect t)).set ↔ _
  rw [View.set_slice_whole, Rect.mem_set_unit]
  exact Iff.rfl

/-- Row `r` of the result is in the block of point `r / 10000`. -/
theorem blocks_cover1 (i : S250000x64.Idx) :
    ∃ t : Fin cfg1.N, (cfg1.win 3).flush t = true ∧ i ∈ ((cfg1.win 3).blk t).view.set := by
  have hi0 : (i 0).val < 250000 := (i 0).isLt
  have hi1 : (i 1).val < 64 := (i 1).isLt
  have hN : grid1.N = 25 := N_1
  obtain ⟨t, ht⟩ : ∃ t : Fin cfg1.N, t.val = (i 0).val / 10000 := ⟨⟨(i 0).val / 10000, by show _ < grid1.N; omega⟩, rfl⟩
  obtain ⟨-, -, -, -, -, -, e6, e7⟩ := index_maps1 t
  refine ⟨t, flush1_3 t, ?_⟩
  rw [mem_block1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The result array after the run is the dense layer of the operand, the weights and the bias row as the region
    finds them. -/
theorem region1_out (c : Dev nD) :
    (dat1 (F := Ideal) V c).arrAt 3 cfg1.N = dense (V c main_arg1) (V c main_arg6) (rowOf (V c main_v6)) :=
  (dat1 V c).arrAt_eq_of_cover 3 _ (fun t _ => written_block1 V c t) blocks_cover1

end Cert.RegionValue

end
-- ==== Proof.Region2.lean ====
/-
  Region 2: the output array after the run of a dense layer computed block of rows by block of rows.

  The grid has 25 points. Point `t` reads rows `10000·t … 10000·t + 9999` of the operand `x : [250000, 64]`, the whole
  weight matrix `w : [64, 4]` and the whole bias row `b : [1, 4]`, and writes the same rows of the result. What it writes
  is the matrix product of its block of rows with `w` into a zero accumulator plus the bias row broadcast over the rows:
  the dense layer `x · w + b` of the block. An entry `(p, q)` of a dense layer depends on row `p` of the operand only, so
  the block that point `t` writes is rows `10000·t …` of the dense layer of the whole arrays. Row `r` of the result lies in
  the block of point `r / 10000`, so the blocks cover the result, and the result array ends holding `x · w + b`.
-/
import proofs.«171182_j33397665693713_1_alg».proof.Proof.Gen.KernelIdeal.Frame
import proofs.«171182_j33397665693713_1_alg».proof.Proof.LibRowBias
import Idealize.ShloMosaic.Lib.Pipeline.Value

noncomputable section

namespace Cert.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.LibRowBias

variable (V : (c : Dev nD) → (b : Ref sig .tc) → Buf (Elt Ideal) ((c : Thread nD τ).loc b))

theorem zero_offsets2 : (![0, 0] : Fin 2 → Nat) = fun _ => 0 := funext fun a => by fin_cases a <;> rfl

/-- What a point stores is the dense layer of the blocks it loaded. -/
theorem payload2_dense (x0 : Vec Ideal S10000x64 .f32) (x1 : Vec Ideal S64x4 .f32) (x2 : Vec Ideal S1x4 .f32) :
    k2_pay1 x0 x1 x2 = dense x0 x1 (rowOf x2) := by
  unfold k2_pay1
  exact vec_dense_row dot_S10000x64_S64x4_S10000x4_1_0_0_1_n_n rfl (some .fp32) (shapeCast S10000x64 x0 shapeCasts_S10000x64_S10000x64) (shapeCast S64x4 x1 shapeCasts_S64x4_S64x4) x0 x1
    (fun i => congrFun (shapeCast_self x0 shapeCasts_S10000x64_S10000x64) i) (fun i => congrFun (shapeCast_self x1 shapeCasts_S64x4_S64x4) i) x2 shapeCasts_S1x4_S1x4 broadcasts_S1x4_S10000x4

/-- The printed index maps, decided over the grid: the operand's and the result's block index along the rows is the
    point's number, every other block index is zero. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An entry of the dense layer of a block of rows, the whole weights and the whole bias row is the entry of the dense
    layer of the whole arrays, `10000 · n` rows further down. -/
theorem block_entry2 (x : S250000x64.Idx → EReal) (w : S64x4.Idx → EReal) (b : S1x4.Idx → EReal)
    (xb : S10000x64.Idx → EReal) (wb : S64x4.Idx → EReal) (bb : S1x4.Idx → EReal) (n : ℕ)
    (hx : ∀ (y : S10000x64.Idx) (i : S250000x64.Idx), (i 0).val = n * 10000 + (y 0).val → (i 1).val = (y 1).val → xb y = x i)
    (hw : ∀ y, wb y = w y) (hb : ∀ y, bb y = b y)
    (j : S10000x4.Idx) (i : S250000x4.Idx) (h0 : (i 0).val = n * 10000 + (j 0).val) (h1 : (i 1).val = (j 1).val) :
    dense xb wb (rowOf bb) j = dense x w (rowOf b) i := by
  obtain ⟨p, q, rfl⟩ : ∃ (p : Fin 10000) (q : Fin 4), j = ix2 p q := ⟨j 0, j 1, eq_ix2 j⟩
  obtain ⟨P, Q, rfl⟩ : ∃ (P : Fin 250000) (Q : Fin 4), i = ix2 P Q := ⟨i 0, i 1, eq_ix2 i⟩
  have hP : P.val = n * 10000 + p.val := h0
  obtain rfl : Q = q := Fin.ext h1
  exact dense_block_apply xb x wb w (rowOf bb) (rowOf b) p P Q (fun k => hx _ _ hP rfl) (fun k => hw _) (hb _)

/-- The operand's block at point `t` is rows `10000·t …` of the operand. -/
theorem rows_block2 (c : Dev nD) (t : Fin cfg2.N) (y : S10000x64.Idx) (i : S250000x64.Idx)
    (h0 : (i 0).val = t.val * 10000 + (y 0).val) (h1 : (i 1).val = (y 1).val) :
    iblk2 V c 0 t y = V c main_v70 i := by
  obtain ⟨e0, e1, -⟩ := index_maps2 t
  show V c main_v70 (((cfg2.win 0).blk t).view.emb y) = V c main_v70 i
  refine congrArg _ ?_
  funext a; apply Fin.ext
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weights' block at every point is the whole weight matrix. -/
theorem weights_block2 (c : Dev nD) (t : Fin cfg2.N) (y : S64x4.Idx) : iblk2 V c 1 t y = V c main_v76 y := by
  obtain ⟨-, -, e2, e3, -⟩ := index_maps2 t
  show V c main_v76 (((cfg2.win 1).blk t).view.emb y) = V c main_v76 y
  refine congrArg _ ?_
  funext a; apply Fin.ext
  match a with
  | ⟨0, _⟩ => show win2_1.index t (0 : Fin 2) * 64 + 1 * (y 0).val = (y 0).val; omega
  | ⟨1, _⟩ => show win2_1.index t (1 : Fin 2) * 4 + 1 * (y 1).val = (y 1).val; omega

/-- The bias row's block at every point is the whole bias row. -/
theorem bias_block2 (c : Dev nD) (t : Fin cfg2.N) (y : S1x4.Idx) : iblk2 V c 2 t y = V c main_v78 y := by
  obtain ⟨-, -, -, -, e4, e5, -⟩ := index_maps2 t
  show V c main_v78 (((cfg2.win 2).blk t).view.emb y) = V c main_v78 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 4 + 1 * (y 1).val = (y 1).val; omega

/-- What point `t` writes back is block `t` of the dense layer of the arrays as the region finds them. -/
theorem written_block2 (c : Dev nD) (t : Fin cfg2.N) :
    (dat2 V c).flushed 3 t
      = ((cfg2.win 3).blk t).view.read (Elt Ideal) (dense (V c main_v70) (V c main_v76) (rowOf (V c main_v78))) := by
  show (cfg2.win 3).cut (grid2.coords t) ((dat2 V c).after 3 t) = _
  rw [after2_3]
  unfold out2_3
  rw [View.canon_unit_zero zero_offsets2]
  simp only [View.ld_unit_zero (S := S10000x64) zero_offsets2, View.ld_unit_zero (S := S64x4) zero_offsets2,
    View.ld_unit_zero (S := S1x4) zero_offsets2]
  rw [payload2_dense]
  obtain ⟨-, -, -, -, -, -, e6, e7⟩ := index_maps2 t
  funext j
  show dense (iblk2 V c 0 t) (iblk2 V c 1 t) (rowOf (iblk2 V c 2 t)) j
    = dense (V c main_v70) (V c main_v76) (rowOf (V c main_v78)) (((cfg2.win 3).blk t).view.emb j)
  refine block_entry2 (V c main_v70) (V c main_v76) (V c main_v78) (iblk2 V c 0 t) (iblk2 V c 1 t) (iblk2 V c 2 t) t.val
    (fun y i h0 h1 => rows_block2 V c t y i h0 h1) (weights_block2 V c t) (bias_block2 V c t) j _ ?_ ?_
  · show win2_3.index t (0 : Fin 2) * 10000 + 1 * (j 0).val = t.val * 10000 + (j 0).val; omega
  · show win2_3.index t (1 : Fin 2) * 4 + 1 * (j 1).val = (j 1).val; omega

/-- An index of the result is in point `t`'s block iff each coordinate is in the block's range on its axis. -/
theorem mem_block2 (t : Fin cfg2.N) (i : S250000x4.Idx) :
    i ∈ ((cfg2.win 3).blk t).view.set ↔ ∀ a : Fin 2, win2_3.index t a * S10000x4.size a ≤ (i a).val
      ∧ (i a).val < win2_3.index t a * S10000x4.size a + S10000x4.size a := by
  show i ∈ ((View.whole main_v79).slice (win2_3.rect t)).set ↔ _
  rw [View.set_slice_whole, Rect.mem_set_unit]
  exact Iff.rfl

/-- Row `r` of the result is in the block of point `r / 10000`. -/
theorem blocks_cover2 (i : S250000x4.Idx) :
    ∃ t : Fin cfg2.N, (cfg2.win 3).flush t = true ∧ i ∈ ((cfg2.win 3).blk t).view.set := by
  have hi0 : (i 0).val < 250000 := (i 0).isLt
  have hi1 : (i 1).val < 4 := (i 1).isLt
  have hN : grid2.N = 25 := N_2
  obtain ⟨t, ht⟩ : ∃ t : Fin cfg2.N, t.val = (i 0).val / 10000 := ⟨⟨(i 0).val / 10000, by show _ < grid2.N; omega⟩, rfl⟩
  obtain ⟨-, -, -, -, -, -, e6, e7⟩ := index_maps2 t
  refine ⟨t, flush2_3 t, ?_⟩
  rw [mem_block2]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 4 ≤ (i 1).val ∧ (i 1).val < win2_3.index t (1 : Fin 2) * 4 + 4
    omega

/-- The result array after the run is the dense layer of the operand, the weights and the bias row as the region
    finds them. -/
theorem region2_out (c : Dev nD) :
    (dat2 (F := Ideal) V c).arrAt 3 cfg2.N = dense (V c main_v70) (V c main_v76) (rowOf (V c main_v78)) :=
  (dat2 V c).arrAt_eq_of_cover 3 _ (fun t _ => written_block2 V c t) blocks_cover2

end Cert.RegionValue

end
-- ==== Proof.Region3.lean ====
/-
  Region 3: the output array after the run of a dense layer computed block of rows by block of rows.

  The grid has 25 points. Point `t` reads rows `10000·t … 10000·t + 9999` of the operand `x : [250000, 64]`, the whole
  weight matrix `w : [64, 2]` and the whole bias row `b : [1, 2]`, and writes the same rows of the result. What it writes
  is the matrix product of its block of rows with `w` into a zero accumulator plus the bias row broadcast over the rows:
  the dense layer `x · w + b` of the block. An entry `(p, q)` of a dense layer depends on row `p` of the operand only, so
  the block that point `t` writes is rows `10000·t …` of the dense layer of the whole arrays. Row `r` of the result lies in
  the block of point `r / 10000`, so the blocks cover the result, and the result array ends holding `x · w + b`.
-/
import proofs.«171182_j33397665693713_1_alg».proof.Proof.Gen.KernelIdeal.Frame
import proofs.«171182_j33397665693713_1_alg».proof.Proof.LibRowBias
import Idealize.ShloMosaic.Lib.Pipeline.Value

noncomputable section

namespace Cert.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.LibRowBias

variable (V : (c : Dev nD) → (b : Ref sig .tc) → Buf (Elt Ideal) ((c : Thread nD τ).loc b))

theorem zero_offsets3 : (![0, 0] : Fin 2 → Nat) = fun _ => 0 := funext fun a => by fin_cases a <;> rfl

/-- What a point stores is the dense layer of the blocks it loaded. -/
theorem payload3_dense (x0 : Vec Ideal S10000x64 .f32) (x1 : Vec Ideal S64x2 .f32) (x2 : Vec Ideal S1x2 .f32) :
    k3_pay1 x0 x1 x2 = dense x0 x1 (rowOf x2) := by
  unfold k3_pay1
  exact vec_dense_row dot_S10000x64_S64x2_S10000x2_1_0_0_1_n_n rfl (some .fp32) (shapeCast S10000x64 x0 shapeCasts_S10000x64_S10000x64) x1 x0 x1
    (fun i => congrFun (shapeCast_self x0 shapeCasts_S10000x64_S10000x64) i) (fun i => rfl) x2 shapeCasts_S1x2_S1x2 broadcasts_S1x2_S10000x2

/-- The printed index maps, decided over the grid: the operand's and the result's block index along the rows is the
    point's number, every other block index is zero. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of the dense layer of a block of rows, the whole weights and the whole bias row is the entry of the dense
    layer of the whole arrays, `10000 · n` rows further down. -/
theorem block_entry3 (x : S250000x64.Idx → EReal) (w : S64x2.Idx → EReal) (b : S1x2.Idx → EReal)
    (xb : S10000x64.Idx → EReal) (wb : S64x2.Idx → EReal) (bb : S1x2.Idx → EReal) (n : ℕ)
    (hx : ∀ (y : S10000x64.Idx) (i : S250000x64.Idx), (i 0).val = n * 10000 + (y 0).val → (i 1).val = (y 1).val → xb y = x i)
    (hw : ∀ y, wb y = w y) (hb : ∀ y, bb y = b y)
    (j : S10000x2.Idx) (i : S250000x2.Idx) (h0 : (i 0).val = n * 10000 + (j 0).val) (h1 : (i 1).val = (j 1).val) :
    dense xb wb (rowOf bb) j = dense x w (rowOf b) i := by
  obtain ⟨p, q, rfl⟩ : ∃ (p : Fin 10000) (q : Fin 2), j = ix2 p q := ⟨j 0, j 1, eq_ix2 j⟩
  obtain ⟨P, Q, rfl⟩ : ∃ (P : Fin 250000) (Q : Fin 2), i = ix2 P Q := ⟨i 0, i 1, eq_ix2 i⟩
  have hP : P.val = n * 10000 + p.val := h0
  obtain rfl : Q = q := Fin.ext h1
  exact dense_block_apply xb x wb w (rowOf bb) (rowOf b) p P Q (fun k => hx _ _ hP rfl) (fun k => hw _) (hb _)

/-- The operand's block at point `t` is rows `10000·t …` of the operand. -/
theorem rows_block3 (c : Dev nD) (t : Fin cfg3.N) (y : S10000x64.Idx) (i : S250000x64.Idx)
    (h0 : (i 0).val = t.val * 10000 + (y 0).val) (h1 : (i 1).val = (y 1).val) :
    iblk3 V c 0 t y = V c main_v75 i := by
  obtain ⟨e0, e1, -⟩ := index_maps3 t
  show V c main_v75 (((cfg3.win 0).blk t).view.emb y) = V c main_v75 i
  refine congrArg _ ?_
  funext a; apply Fin.ext
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The weights' block at every point is the whole weight matrix. -/
theorem weights_block3 (c : Dev nD) (t : Fin cfg3.N) (y : S64x2.Idx) : iblk3 V c 1 t y = V c main_arg12 y := by
  obtain ⟨-, -, e2, e3, -⟩ := index_maps3 t
  show V c main_arg12 (((cfg3.win 1).blk t).view.emb y) = V c main_arg12 y
  refine congrArg _ ?_
  funext a; apply Fin.ext
  match a with
  | ⟨0, _⟩ => show win3_1.index t (0 : Fin 2) * 64 + 1 * (y 0).val = (y 0).val; omega
  | ⟨1, _⟩ => show win3_1.index t (1 : Fin 2) * 2 + 1 * (y 1).val = (y 1).val; omega

/-- The bias row's block at every point is the whole bias row. -/
theorem bias_block3 (c : Dev nD) (t : Fin cfg3.N) (y : S1x2.Idx) : iblk3 V c 2 t y = V c main_v82 y := by
  obtain ⟨-, -, -, -, e4, e5, -⟩ := index_maps3 t
  show V c main_v82 (((cfg3.win 2).blk t).view.emb y) = V c main_v82 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 2 + 1 * (y 1).val = (y 1).val; omega

/-- What point `t` writes back is block `t` of the dense layer of the arrays as the region finds them. -/
theorem written_block3 (c : Dev nD) (t : Fin cfg3.N) :
    (dat3 V c).flushed 3 t
      = ((cfg3.win 3).blk t).view.read (Elt Ideal) (dense (V c main_v75) (V c main_arg12) (rowOf (V c main_v82))) := by
  show (cfg3.win 3).cut (grid3.coords t) ((dat3 V c).after 3 t) = _
  rw [after3_3]
  unfold out3_3
  rw [View.canon_unit_zero zero_offsets3]
  simp only [View.ld_unit_zero (S := S10000x64) zero_offsets3, View.ld_unit_zero (S := S64x2) zero_offsets3,
    View.ld_unit_zero (S := S1x2) zero_offsets3]
  rw [payload3_dense]
  obtain ⟨-, -, -, -, -, -, e6, e7⟩ := index_maps3 t
  funext j
  show dense (iblk3 V c 0 t) (iblk3 V c 1 t) (rowOf (iblk3 V c 2 t)) j
    = dense (V c main_v75) (V c main_arg12) (rowOf (V c main_v82)) (((cfg3.win 3).blk t).view.emb j)
  refine block_entry3 (V c main_v75) (V c main_arg12) (V c main_v82) (iblk3 V c 0 t) (iblk3 V c 1 t) (iblk3 V c 2 t) t.val
    (fun y i h0 h1 => rows_block3 V c t y i h0 h1) (weights_block3 V c t) (bias_block3 V c t) j _ ?_ ?_
  · show win3_3.index t (0 : Fin 2) * 10000 + 1 * (j 0).val = t.val * 10000 + (j 0).val; omega
  · show win3_3.index t (1 : Fin 2) * 2 + 1 * (j 1).val = (j 1).val; omega

/-- An index of the result is in point `t`'s block iff each coordinate is in the block's range on its axis. -/
theorem mem_block3 (t : Fin cfg3.N) (i : S250000x2.Idx) :
    i ∈ ((cfg3.win 3).blk t).view.set ↔ ∀ a : Fin 2, win3_3.index t a * S10000x2.size a ≤ (i a).val
      ∧ (i a).val < win3_3.index t a * S10000x2.size a + S10000x2.size a := by
  show i ∈ ((View.whole main_v83).slice (win3_3.rect t)).set ↔ _
  rw [View.set_slice_whole, Rect.mem_set_unit]
  exact Iff.rfl

/-- Row `r` of the result is in the block of point `r / 10000`. -/
theorem blocks_cover3 (i : S250000x2.Idx) :
    ∃ t : Fin cfg3.N, (cfg3.win 3).flush t = true ∧ i ∈ ((cfg3.win 3).blk t).view.set := by
  have hi0 : (i 0).val < 250000 := (i 0).isLt
  have hi1 : (i 1).val < 2 := (i 1).isLt
  have hN : grid3.N = 25 := N_3
  obtain ⟨t, ht⟩ : ∃ t : Fin cfg3.N, t.val = (i 0).val / 10000 := ⟨⟨(i 0).val / 10000, by show _ < grid3.N; omega⟩, rfl⟩
  obtain ⟨-, -, -, -, -, -, e6, e7⟩ := index_maps3 t
  refine ⟨t, flush3_3 t, ?_⟩
  rw [mem_block3]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 2 ≤ (i 1).val ∧ (i 1).val < win3_3.index t (1 : Fin 2) * 2 + 2
    omega

/-- The result array after the run is the dense layer of the operand, the weights and the bias row as the region
    finds them. -/
theorem region3_out (c : Dev nD) :
    (dat3 (F := Ideal) V c).arrAt 3 cfg3.N = dense (V c main_v75) (V c main_arg12) (rowOf (V c main_v82)) :=
  (dat3 V c).arrAt_eq_of_cover 3 _ (fun t _ => written_block3 V c t) blocks_cover3

end Cert.RegionValue

end
-- ==== Proof.Layers.lean ====
/-
  What each of the four dense-layer calls leaves in its output array, in terms of the launch memory.

  A call's output is the dense layer `x · w + b` of what the call finds in its three input arrays. The first call of
  each layer finds the two weight matrices of the user features side by side and their two bias vectors end to end
  (the host concatenated them just before); the second finds one weight matrix and one bias vector as a one-row matrix.
  The first layer reads the feature arguments themselves; the second reads the hidden features the host stretches
  between the layers left, whose contents stay stated at their own boundary.
-/
import proofs.«171182_j33397665693713_1_alg».proof.Proof.Walk
import proofs.«171182_j33397665693713_1_alg».proof.Proof.Region0
import proofs.«171182_j33397665693713_1_alg».proof.Proof.Region1
import proofs.«171182_j33397665693713_1_alg».proof.Proof.Region2
import proofs.«171182_j33397665693713_1_alg».proof.Proof.Region3

set_option maxRecDepth 16384

noncomputable section

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.RegionValue

/-- The rewriting pass that reads a buffer at a boundary back through the segments before it: a host operation's
    result buffer holds its function of its operands' contents, any other buffer what it held; a dense-layer call
    as `Walk` says. -/
macro "walk" : tactic =>
  `(tactic| simp (disch := decide) only [W1, W3, W5, W6, W7, W8, W9, W11, W13,
      hostOps0, hostOps1, hostOps2, hostOps2_1, hostOps2_2, hostOps2_3, hostOps2_4, hostOps3, hostOps4,
      W2_keep, W4_keep, W10_keep, W12_keep, W2_out, W4_out, W10_out, W12_out, W10_in, W12_in,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

section Inputs

variable {F : FTy → Type} [FloatOps F]
variable (m : (ℓ : Loc nD τ sig) → Buf (Elt F) ℓ) (ρ : Dev nD → PrngReg)

/-! ## What each call finds in its three input arrays -/

theorem V1_x (c : Dev nD) : V1 m ρ c main_arg0 = W0 m ρ c (Proc.devRef .tc main_arg0) := by
  show W1 m ρ c (Proc.devRef .tc main_arg0) = _
  walk
theorem V1_w (c : Dev nD) : V1 m ρ c main_v0
    = concatenate S128x128 1 [⟨S128x64, W0 m ρ c (Proc.devRef .tc main_arg2)⟩, ⟨S128x64, W0 m ρ c (Proc.devRef .tc main_arg4)⟩] concatenates_S128x64_S128x64_S128x128_d1 := by
  show StableHlo.after hostOps0 (W0 m ρ c) (Proc.devRef .tc main_v0) = _
  after_results <;> rfl
theorem V1_b (c : Dev nD) : V1 m ρ c main_v2
    = shapeCast S1x128 (concatenate S128 0 [⟨S64, W0 m ρ c (Proc.devRef .tc main_arg3)⟩, ⟨S64, W0 m ρ c (Proc.devRef .tc main_arg5)⟩] concatenates_S64_S64_S128_d0) shapeCasts_S128_S1x128 := by
  show StableHlo.after hostOps0 (W0 m ρ c) (Proc.devRef .tc main_v2) = _
  after_results <;> rfl

theorem V3_x (c : Dev nD) : V3 m ρ c main_arg1 = W0 m ρ c (Proc.devRef .tc main_arg1) := by
  show W3 m ρ c (Proc.devRef .tc main_arg1) = _
  walk
theorem V3_w (c : Dev nD) : V3 m ρ c main_arg6 = W0 m ρ c (Proc.devRef .tc main_arg6) := by
  show W3 m ρ c (Proc.devRef .tc main_arg6) = _
  walk
theorem W2_arg7 (c : Dev nD) : W2 m ρ c (Proc.devRef .tc main_arg7) = W0 m ρ c (Proc.devRef .tc main_arg7) := by
  walk
theorem V3_b (c : Dev nD) : V3 m ρ c main_v6 = shapeCast S1x64 (W0 m ρ c (Proc.devRef .tc main_arg7)) shapeCasts_S64_S1x64 := by
  show StableHlo.after hostOps1 (W2 m ρ c) (Proc.devRef .tc main_v6) = _
  rw [← W2_arg7 m ρ c]
  after_results <;> rfl

theorem V9_x (c : Dev nD) : V9 m ρ c main_v70 = W9 m ρ c (Proc.devRef .tc main_v70) := rfl
theorem W8_arg8 (c : Dev nD) : W8 m ρ c (Proc.devRef .tc main_arg8) = W0 m ρ c (Proc.devRef .tc main_arg8) := by walk
theorem W8_arg9 (c : Dev nD) : W8 m ρ c (Proc.devRef .tc main_arg9) = W0 m ρ c (Proc.devRef .tc main_arg9) := by walk
theorem W8_arg10 (c : Dev nD) : W8 m ρ c (Proc.devRef .tc main_arg10) = W0 m ρ c (Proc.devRef .tc main_arg10) := by walk
theorem W8_arg11 (c : Dev nD) : W8 m ρ c (Proc.devRef .tc main_arg11) = W0 m ρ c (Proc.devRef .tc main_arg11) := by walk
/-- The last host stretch before the second layer, from any contents: the two class matrices side by side. -/
theorem stage_w2 (V : Valuation τ sig (Elt F)) : StableHlo.after hostOps2_4 V (Proc.devRef .tc main_v76)
    = concatenate S64x4 1 [⟨S64x2, V (Proc.devRef .tc main_arg8)⟩, ⟨S64x2, V (Proc.devRef .tc main_arg10)⟩] concatenates_S64x2_S64x2_S64x4_d1 := by
  after_results <;> rfl
/-- The same stretch: the two class bias vectors end to end, as a one-row matrix. -/
theorem stage_b2 (V : Valuation τ sig (Elt F)) : StableHlo.after hostOps2_4 V (Proc.devRef .tc main_v78)
    = shapeCast S1x4 (concatenate S4 0 [⟨S2, V (Proc.devRef .tc main_arg9)⟩, ⟨S2, V (Proc.devRef .tc main_arg11)⟩] concatenates_S2_S2_S4_d0) shapeCasts_S4_S1x4 := by
  after_results <;> rfl
theorem V9_w (c : Dev nD) : V9 m ρ c main_v76
    = concatenate S64x4 1 [⟨S64x2, W0 m ρ c (Proc.devRef .tc main_arg8)⟩, ⟨S64x2, W0 m ρ c (Proc.devRef .tc main_arg10)⟩] concatenates_S64x2_S64x2_S64x4_d1 := by
  refine (stage_w2 (W8 m ρ c)).trans ?_
  rw [W8_arg8 m ρ c, W8_arg10 m ρ c]
theorem V9_b (c : Dev nD) : V9 m ρ c main_v78
    = shapeCast S1x4 (concatenate S4 0 [⟨S2, W0 m ρ c (Proc.devRef .tc main_arg9)⟩, ⟨S2, W0 m ρ c (Proc.devRef .tc main_arg11)⟩] concatenates_S2_S2_S4_d0) shapeCasts_S4_S1x4 := by
  refine (stage_b2 (W8 m ρ c)).trans ?_
  rw [W8_arg9 m ρ c, W8_arg11 m ρ c]

theorem V11_x (c : Dev nD) : V11 m ρ c main_v75 = W9 m ρ c (Proc.devRef .tc main_v75) := by
  show W11 m ρ c (Proc.devRef .tc main_v75) = _
  simp (disch := decide) only [W11, hostOps3, W10_keep, after_cons, after_nil, unary_result_ne', reshape_result_ne']
theorem V11_w (c : Dev nD) : V11 m ρ c main_arg12 = W0 m ρ c (Proc.devRef .tc main_arg12) := by
  show W11 m ρ c (Proc.devRef .tc main_arg12) = _
  walk
theorem W10_arg13 (c : Dev nD) : W10 m ρ c (Proc.devRef .tc main_arg13) = W0 m ρ c (Proc.devRef .tc main_arg13) := by
  walk
theorem V11_b (c : Dev nD) : V11 m ρ c main_v82 = shapeCast S1x2 (W0 m ρ c (Proc.devRef .tc main_arg13)) shapeCasts_S2_S1x2 := by
  show StableHlo.after hostOps3 (W10 m ρ c) (Proc.devRef .tc main_v82) = _
  rw [← W10_arg13 m ρ c]
  after_results <;> rfl

end Inputs

/-! ## The four output arrays -/

variable (m : (ℓ : Loc nD τ sig) → Buf (Elt Ideal) ℓ) (ρ : Dev nD → PrngReg)

/-- The first layer-1 call: the user features through the two weight matrices side by side. -/
theorem W2_v3 (c : Dev nD) : W2 m ρ c (no_index (Proc.devRef .tc main_v3))
    = dense (M := 250000) (K := 128) (N := 128) (W0 m ρ c (Proc.devRef .tc main_arg0))
        (concatenate S128x128 1 [⟨S128x64, W0 m ρ c (Proc.devRef .tc main_arg2)⟩, ⟨S128x64, W0 m ρ c (Proc.devRef .tc main_arg4)⟩] concatenates_S128x64_S128x64_S128x128_d1)
        (rowOf (shapeCast S1x128 (concatenate S128 0 [⟨S64, W0 m ρ c (Proc.devRef .tc main_arg3)⟩, ⟨S64, W0 m ρ c (Proc.devRef .tc main_arg5)⟩] concatenates_S64_S64_S128_d0) shapeCasts_S128_S1x128)) := by
  refine (W2_arr m ρ c 3).trans ?_
  rw [region0_out, V1_x, V1_w, V1_b]

/-- The second layer-1 call: the item features through their weight matrix. -/
theorem W4_v7 (c : Dev nD) : W4 m ρ c (no_index (Proc.devRef .tc main_v7))
    = dense (M := 250000) (K := 128) (N := 64) (W0 m ρ c (Proc.devRef .tc main_arg1)) (W0 m ρ c (Proc.devRef .tc main_arg6))
        (rowOf (shapeCast S1x64 (W0 m ρ c (Proc.devRef .tc main_arg7)) shapeCasts_S64_S1x64)) := by
  refine (W4_arr m ρ c 3).trans ?_
  rw [region1_out, V3_x, V3_w, V3_b]

/-- The first layer-2 call: the hidden user features through the two class matrices side by side. -/
theorem W10_v79 (c : Dev nD) : W10 m ρ c (no_index (Proc.devRef .tc main_v79))
    = dense (M := 250000) (K := 64) (N := 4) (W9 m ρ c (Proc.devRef .tc main_v70))
        (concatenate S64x4 1 [⟨S64x2, W0 m ρ c (Proc.devRef .tc main_arg8)⟩, ⟨S64x2, W0 m ρ c (Proc.devRef .tc main_arg10)⟩] concatenates_S64x2_S64x2_S64x4_d1)
        (rowOf (shapeCast S1x4 (concatenate S4 0 [⟨S2, W0 m ρ c (Proc.devRef .tc main_arg9)⟩, ⟨S2, W0 m ρ c (Proc.devRef .tc main_arg11)⟩] concatenates_S2_S2_S4_d0) shapeCasts_S4_S1x4)) := by
  refine (W10_arr m ρ c 3).trans ?_
  rw [region2_out, V9_x, V9_w, V9_b]

/-- The second layer-2 call: the hidden item features through their class matrix. -/
theorem W12_v83 (c : Dev nD) : W12 m ρ c (no_index (Proc.devRef .tc main_v83))
    = dense (M := 250000) (K := 64) (N := 2) (W9 m ρ c (Proc.devRef .tc main_v75)) (W0 m ρ c (Proc.devRef .tc main_arg12))
        (rowOf (shapeCast S1x2 (W0 m ρ c (Proc.devRef .tc main_arg13)) shapeCasts_S2_S1x2)) := by
  refine (W12_arr m ρ c 3).trans ?_
  rw [region3_out, V11_x, V11_w, V11_b]

end Cert.KernelIdeal.Named

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.LayerSlices.lean ====
/-
  One matrix product serving two dense layers, read back as the two layers.

  A program that wants `x · w₁ + b₁` and `x · w₂ + b₂` for the same operand `x : [M, K]` may lay the two weight matrices
  `w₁ w₂ : [K, a]` side by side into one `[K, 2a]` matrix and the two bias vectors `b₁ b₂ : [a]` end to end into one
  vector of length `2a`, form the one dense layer `x · [w₁ | w₂] + [b₁ | b₂]`, and cut the result's columns `0 … a − 1` and
  `a … 2a − 1` apart. Column `q` of the joint layer is `(∑ k, x (p, k) · [w₁ | w₂] (k, q)) + [b₁ | b₂] q`: for `q < a` every
  term reads `w₁ (k, q)` and `b₁ q`, and for `q = a + j` every term reads `w₂ (k, j)` and `b₂ j`. So the left cut is
  `x · w₁ + b₁` and the right cut is `x · w₂ + b₂` (`cut_left`, `cut_right`); no entry needs to be finite.

  The host program spells the layer `x · w + b` as a general dot product plus the bias vector broadcast to a row along
  a new leading axis and that row broadcast over the rows; that spelling is `dense x w (colBias b)`. The equations below
  carry the joint layer's two cuts, and a layer whose bias row is a reshaped bias vector, to that spelling.
-/
import proofs.«171182_j33397665693713_1_alg».proof.KernelIdeal
import proofs.«171182_j33397665693713_1_alg».proof.ReferenceIdeal
import proofs.«171182_j33397665693713_1_alg».proof.Proof.LibRowBias
import proofs.«171182_j33397665693713_1_alg».proof.Proof.LibSideBySide
import Idealize.ShloMosaic.Lib.Pipeline.Value
import Idealize.ShloMosaic.Lib.ValueLayout

noncomputable section

open scoped BigOperators

namespace Cert.LayerSlices

open Idealize.ShloMosaic Idealize.ShloMosaic.ValueIdx Cert.DenseLayer Cert.LayerForms Cert.LibRowBias Cert.LibSideBySide

/-! ## The two cuts of a joint layer, for any extents -/

/-- The left cut of the joint layer is the first layer. -/
theorem cut_left {M K a t : ℕ} (hat : t = a + a) (x : (⟨2, ![M, K]⟩ : Shape).Idx → EReal)
    (w₁ w₂ : FVec Ideal ⟨2, ![K, a]⟩ .f32) (b₁ b₂ : FVec Ideal ⟨1, ![a]⟩ .f32)
    (hw : Shape.Concatenates [(⟨2, ![K, a]⟩ : Shape), ⟨2, ![K, a]⟩] ⟨2, ![K, t]⟩ 1)
    (hb : Shape.Concatenates [(⟨1, ![a]⟩ : Shape), ⟨1, ![a]⟩] ⟨1, ![t]⟩ 0)
    (hc : (⟨1, ![t]⟩ : Shape).ShapeCasts ⟨2, ![1, t]⟩)
    (hs : (⟨2, ![M, t]⟩ : Shape).Slices ![0, 0] ⟨2, ![M, a]⟩) :
    extractStridedSlice ⟨2, ![M, a]⟩ ![0, 0]
        (dense x (concatenate ⟨2, ![K, t]⟩ 1 [⟨⟨2, ![K, a]⟩, w₁⟩, ⟨⟨2, ![K, a]⟩, w₂⟩] hw)
          (rowOf (shapeCast ⟨2, ![1, t]⟩ (concatenate ⟨1, ![t]⟩ 0 [⟨⟨1, ![a]⟩, b₁⟩, ⟨⟨1, ![a]⟩, b₂⟩] hb) hc))) hs
      = dense x w₁ (colBias b₁) := by
  funext i
  obtain ⟨p, q, rfl⟩ : ∃ (p : Fin M) (q : Fin a), i = ix2 p q := ⟨i 0, i 1, eq_ix2 i⟩
  have hq : q.val < t := by have := q.isLt; omega
  refine (slice2_axis1_apply 0 _ hs p q ⟨q.val, hq⟩ (Nat.zero_add _).symm).trans ?_
  rw [rowOf_cast]
  show (∑ k : Fin K, x (ix2 p k) * concatenate ⟨2, ![K, t]⟩ 1 [⟨⟨2, ![K, a]⟩, w₁⟩, ⟨⟨2, ![K, a]⟩, w₂⟩] hw (ix2 k ⟨q.val, hq⟩))
      + concatenate ⟨1, ![t]⟩ 0 [⟨⟨1, ![a]⟩, b₁⟩, ⟨⟨1, ![a]⟩, b₂⟩] hb (ix1 ⟨q.val, hq⟩)
    = (∑ k : Fin K, x (ix2 p k) * w₁ (ix2 k q)) + b₁ (ix1 q)
  rw [pair_vec_left b₁ b₂ hb q ⟨q.val, hq⟩ rfl]
  exact congrArg (· + b₁ (ix1 q)) (Finset.sum_congr rfl fun k _ => by rw [pair_cols_left w₁ w₂ hw k q ⟨q.val, hq⟩ rfl])

/-- The right cut of the joint layer is the second layer. -/
theorem cut_right {M K a t : ℕ} (hat : t = a + a) (x : (⟨2, ![M, K]⟩ : Shape).Idx → EReal)
    (w₁ w₂ : FVec Ideal ⟨2, ![K, a]⟩ .f32) (b₁ b₂ : FVec Ideal ⟨1, ![a]⟩ .f32)
    (hw : Shape.Concatenates [(⟨2, ![K, a]⟩ : Shape), ⟨2, ![K, a]⟩] ⟨2, ![K, t]⟩ 1)
    (hb : Shape.Concatenates [(⟨1, ![a]⟩ : Shape), ⟨1, ![a]⟩] ⟨1, ![t]⟩ 0)
    (hc : (⟨1, ![t]⟩ : Shape).ShapeCasts ⟨2, ![1, t]⟩)
    (hs : (⟨2, ![M, t]⟩ : Shape).Slices ![0, a] ⟨2, ![M, a]⟩) :
    extractStridedSlice ⟨2, ![M, a]⟩ ![0, a]
        (dense x (concatenate ⟨2, ![K, t]⟩ 1 [⟨⟨2, ![K, a]⟩, w₁⟩, ⟨⟨2, ![K, a]⟩, w₂⟩] hw)
          (rowOf (shapeCast ⟨2, ![1, t]⟩ (concatenate ⟨1, ![t]⟩ 0 [⟨⟨1, ![a]⟩, b₁⟩, ⟨⟨1, ![a]⟩, b₂⟩] hb) hc))) hs
      = dense x w₂ (colBias b₂) := by
  funext i
  obtain ⟨p, q, rfl⟩ : ∃ (p : Fin M) (q : Fin a), i = ix2 p q := ⟨i 0, i 1, eq_ix2 i⟩
  have hq : a + q.val < t := by have := q.isLt; omega
  refine (slice2_axis1_apply a _ hs p q ⟨a + q.val, hq⟩ rfl).trans ?_
  rw [rowOf_cast]
  show (∑ k : Fin K, x (ix2 p k) * concatenate ⟨2, ![K, t]⟩ 1 [⟨⟨2, ![K, a]⟩, w₁⟩, ⟨⟨2, ![K, a]⟩, w₂⟩] hw (ix2 k ⟨a + q.val, hq⟩))
      + concatenate ⟨1, ![t]⟩ 0 [⟨⟨1, ![a]⟩, b₁⟩, ⟨⟨1, ![a]⟩, b₂⟩] hb (ix1 ⟨a + q.val, hq⟩)
    = (∑ k : Fin K, x (ix2 p k) * w₂ (ix2 k q)) + b₂ (ix1 q)
  rw [pair_vec_right b₁ b₂ hb q ⟨a + q.val, hq⟩ rfl]
  exact congrArg (· + b₂ (ix1 q)) (Finset.sum_congr rfl fun k _ => by rw [pair_cols_right w₁ w₂ hw k q ⟨a + q.val, hq⟩ rfl])

/-! ## The program's two layers -/

variable [Cert.KernelIdeal.Facts₀] [Cert.ReferenceIdeal.Facts₀]

open Cert.KernelIdeal Cert.KernelIdeal.Facts₀

/-! ### First layer: `[250000, 128] · [128, 64 + 64]` -/

/-- The host's spelling of a first-layer dense step. -/
theorem host_l1 (x : FVec Ideal S250000x128 .f32) (w : FVec Ideal S128x64 .f32) (b : FVec Ideal S64 .f32) :
    dense x w (colBias b)
      = addf (Host.dotGeneral Cert.ReferenceIdeal.dot_S250000x128_S128x64_S250000x64_1_0_0_1_n_n none x w)
          (broadcastInDim Cert.ReferenceIdeal.S250000x64 ![0, 1] Cert.ReferenceIdeal.Facts₀.bcast_S1x64_S250000x64_0_1
            (broadcastInDim Cert.ReferenceIdeal.S1x64 ![1] Cert.ReferenceIdeal.Facts₀.bcast_S64_S1x64_1 b)) :=
  (host_dense Cert.ReferenceIdeal.dot_S250000x128_S128x64_S250000x64_1_0_0_1_n_n rfl none x w b
    Cert.ReferenceIdeal.Facts₀.bcast_S64_S1x64_1 Cert.ReferenceIdeal.Facts₀.bcast_S1x64_S250000x64_0_1).symm

theorem kslice_l1_left (x : FVec Ideal S250000x128 .f32) (w1 w2 : FVec Ideal S128x64 .f32) (b1 b2 : FVec Ideal S64 .f32) :
    extractStridedSlice S250000x64 ![0, 0]
        (dense x (concatenate S128x128 1 [⟨S128x64, w1⟩, ⟨S128x64, w2⟩] concatenates_S128x64_S128x64_S128x128_d1)
          (rowOf (shapeCast S1x128 (concatenate S128 0 [⟨S64, b1⟩, ⟨S64, b2⟩] concatenates_S64_S64_S128_d0) shapeCasts_S128_S1x128)))
        slices_S250000x128_S250000x64_0_0
      = addf (Host.dotGeneral Cert.ReferenceIdeal.dot_S250000x128_S128x64_S250000x64_1_0_0_1_n_n none x w1)
          (broadcastInDim Cert.ReferenceIdeal.S250000x64 ![0, 1] Cert.ReferenceIdeal.Facts₀.bcast_S1x64_S250000x64_0_1
            (broadcastInDim Cert.ReferenceIdeal.S1x64 ![1] Cert.ReferenceIdeal.Facts₀.bcast_S64_S1x64_1 b1)) :=
  (cut_left (M := 250000) (K := 128) (a := 64) (t := 128) rfl x w1 w2 b1 b2 concatenates_S128x64_S128x64_S128x128_d1
    concatenates_S64_S64_S128_d0 shapeCasts_S128_S1x128 slices_S250000x128_S250000x64_0_0).trans (host_l1 x w1 b1)

theorem kslice_l1_right (x : FVec Ideal S250000x128 .f32) (w1 w2 : FVec Ideal S128x64 .f32) (b1 b2 : FVec Ideal S64 .f32) :
    extractStridedSlice S250000x64 ![0, 64]
        (dense x (concatenate S128x128 1 [⟨S128x64, w1⟩, ⟨S128x64, w2⟩] concatenates_S128x64_S128x64_S128x128_d1)
          (rowOf (shapeCast S1x128 (concatenate S128 0 [⟨S64, b1⟩, ⟨S64, b2⟩] concatenates_S64_S64_S128_d0) shapeCasts_S128_S1x128)))
        slices_S250000x128_S250000x64_0_64
      = addf (Host.dotGeneral Cert.ReferenceIdeal.dot_S250000x128_S128x64_S250000x64_1_0_0_1_n_n none x w2)
          (broadcastInDim Cert.ReferenceIdeal.S250000x64 ![0, 1] Cert.ReferenceIdeal.Facts₀.bcast_S1x64_S250000x64_0_1
            (broadcastInDim Cert.ReferenceIdeal.S1x64 ![1] Cert.ReferenceIdeal.Facts₀.bcast_S64_S1x64_1 b2)) :=
  (cut_right (M := 250000) (K := 128) (a := 64) (t := 128) rfl x w1 w2 b1 b2 concatenates_S128x64_S128x64_S128x128_d1
    concatenates_S64_S64_S128_d0 shapeCasts_S128_S1x128 slices_S250000x128_S250000x64_0_64).trans (host_l1 x w2 b2)

/-- A first-layer dense step whose bias row is a reshaped bias vector, in the host's spelling. -/
theorem kdense_l1_rev (x : FVec Ideal S250000x128 .f32) (w : FVec Ideal S128x64 .f32) (b : FVec Ideal S64 .f32) :
    dense x w (rowOf (shapeCast S1x64 b shapeCasts_S64_S1x64))
      = addf (Host.dotGeneral Cert.ReferenceIdeal.dot_S250000x128_S128x64_S250000x64_1_0_0_1_n_n none x w)
          (broadcastInDim Cert.ReferenceIdeal.S250000x64 ![0, 1] Cert.ReferenceIdeal.Facts₀.bcast_S1x64_S250000x64_0_1
            (broadcastInDim Cert.ReferenceIdeal.S1x64 ![1] Cert.ReferenceIdeal.Facts₀.bcast_S64_S1x64_1 b)) :=
  (congrArg (dense x w) (rowOf_cast (N := 64) b shapeCasts_S64_S1x64)).trans (host_l1 x w b)

/-! ### Second layer: `[250000, 64] · [64, 2 + 2]` -/

/-- The host's spelling of a second-layer dense step. -/
theorem host_l2 (x : FVec Ideal S250000x64 .f32) (w : FVec Ideal S64x2 .f32) (b : FVec Ideal S2 .f32) :
    dense x w (colBias b)
      = addf (Host.dotGeneral Cert.ReferenceIdeal.dot_S250000x64_S64x2_S250000x2_1_0_0_1_n_n none x w)
          (broadcastInDim Cert.ReferenceIdeal.S250000x2 ![0, 1] Cert.ReferenceIdeal.Facts₀.bcast_S1x2_S250000x2_0_1
            (broadcastInDim Cert.ReferenceIdeal.S1x2 ![1] Cert.ReferenceIdeal.Facts₀.bcast_S2_S1x2_1 b)) :=
  (host_dense Cert.ReferenceIdeal.dot_S250000x64_S64x2_S250000x2_1_0_0_1_n_n rfl none x w b
    Cert.ReferenceIdeal.Facts₀.bcast_S2_S1x2_1 Cert.ReferenceIdeal.Facts₀.bcast_S1x2_S250000x2_0_1).symm

theorem kslice_l2_left (x : FVec Ideal S250000x64 .f32) (w1 w2 : FVec Ideal S64x2 .f32) (b1 b2 : FVec Ideal S2 .f32) :
    extractStridedSlice S250000x2 ![0, 0]
        (dense x (concatenate S64x4 1 [⟨S64x2, w1⟩, ⟨S64x2, w2⟩] concatenates_S64x2_S64x2_S64x4_d1)
          (rowOf (shapeCast S1x4 (concatenate S4 0 [⟨S2, b1⟩, ⟨S2, b2⟩] concatenates_S2_S2_S4_d0) shapeCasts_S4_S1x4)))
        slices_S250000x4_S250000x2_0_0
      = addf (Host.dotGeneral Cert.ReferenceIdeal.dot_S250000x64_S64x2_S250000x2_1_0_0_1_n_n none x w1)
          (broadcastInDim Cert.ReferenceIdeal.S250000x2 ![0, 1] Cert.ReferenceIdeal.Facts₀.bcast_S1x2_S250000x2_0_1
            (broadcastInDim Cert.ReferenceIdeal.S1x2 ![1] Cert.ReferenceIdeal.Facts₀.bcast_S2_S1x2_1 b1)) :=
  (cut_left (M := 250000) (K := 64) (a := 2) (t := 4) rfl x w1 w2 b1 b2 concatenates_S64x2_S64x2_S64x4_d1
    concatenates_S2_S2_S4_d0 shapeCasts_S4_S1x4 slices_S250000x4_S250000x2_0_0).trans (host_l2 x w1 b1)

theorem kslice_l2_right (x : FVec Ideal S250000x64 .f32) (w1 w2 : FVec Ideal S64x2 .f32) (b1 b2 : FVec Ideal S2 .f32) :
    extractStridedSlice S250000x2 ![0, 2]
        (dense x (concatenate S64x4 1 [⟨S64x2, w1⟩, ⟨S64x2, w2⟩] concatenates_S64x2_S64x2_S64x4_d1)
          (rowOf (shapeCast S1x4 (concatenate S4 0 [⟨S2, b1⟩, ⟨S2, b2⟩] concatenates_S2_S2_S4_d0) shapeCasts_S4_S1x4)))
        slices_S250000x4_S250000x2_0_2
      = addf (Host.dotGeneral Cert.ReferenceIdeal.dot_S250000x64_S64x2_S250000x2_1_0_0_1_n_n none x w2)
          (broadcastInDim Cert.ReferenceIdeal.S250000x2 ![0, 1] Cert.ReferenceIdeal.Facts₀.bcast_S1x2_S250000x2_0_1
            (broadcastInDim Cert.ReferenceIdeal.S1x2 ![1] Cert.ReferenceIdeal.Facts₀.bcast_S2_S1x2_1 b2)) :=
  (cut_right (M := 250000) (K := 64) (a := 2) (t := 4) rfl x w1 w2 b1 b2 concatenates_S64x2_S64x2_S64x4_d1
    concatenates_S2_S2_S4_d0 shapeCasts_S4_S1x4 slices_S250000x4_S250000x2_0_2).trans (host_l2 x w2 b2)

/-- A second-layer dense step whose bias row is a reshaped bias vector, in the host's spelling. -/
theorem kdense_l2_rev (x : FVec Ideal S250000x64 .f32) (w : FVec Ideal S64x2 .f32) (b : FVec Ideal S2 .f32) :
    dense x w (rowOf (shapeCast S1x2 b shapeCasts_S2_S1x2))
      = addf (Host.dotGeneral Cert.ReferenceIdeal.dot_S250000x64_S64x2_S250000x2_1_0_0_1_n_n none x w)
          (broadcastInDim Cert.ReferenceIdeal.S250000x2 ![0, 1] Cert.ReferenceIdeal.Facts₀.bcast_S1x2_S250000x2_0_1
            (broadcastInDim Cert.ReferenceIdeal.S1x2 ![1] Cert.ReferenceIdeal.Facts₀.bcast_S2_S1x2_1 b)) :=
  (congrArg (dense x w) (rowOf_cast (N := 2) b shapeCasts_S2_S1x2)).trans (host_l2 x w b)

end Cert.LayerSlices

end
-- ==== Proof.WalkLayers.lean ====
/-
  The rewriting pass that reads a result buffer of the kernel program back to the launch memory in the reference's
  own spelling: the pass of `Layers`, with each dense-layer call's output array read as the dense layer of what the
  call found, and each column slice of a two-matrix layer read as the host's own dense layer of one matrix.
-/
import proofs.«171182_j33397665693713_1_alg».proof.Proof.Layers
import proofs.«171182_j33397665693713_1_alg».proof.Proof.LayerSlices

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.LayerSlices

macro "walk_layers" : tactic =>
  `(tactic| simp (disch := decide) only [W1, W3, W5, W6, W7, W8, W9, W11, W13,
      hostOps0, hostOps1, hostOps2, hostOps2_1, hostOps2_2, hostOps2_3, hostOps2_4, hostOps3, hostOps4,
      W2_keep, W4_keep, W10_keep, W12_keep, W2_v3, W4_v7, W10_v79, W12_v83, W10_in, W12_in,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      kslice_l1_left, kslice_l1_right, kdense_l1_rev, kslice_l2_left, kslice_l2_right, kdense_l2_rev])

end Cert.KernelIdeal.Named
-- ==== Proof.Out0.lean ====
/-
  The user class scores, kernel against reference.

  Both programs form them as the sum of two means: over incoming follow edges of the second layer's dense layer of
  the hidden user features, and over incoming reverse-click edges of the second layer's dense layer of the hidden item
  features. The kernel takes the first as the left half of the columns of one wider layer and the second from a tiled
  call of its own; the hidden features under them are the ones both programs share.
-/
import proofs.«171182_j33397665693713_1_alg».proof.Proof.WalkLayers
import proofs.«171182_j33397665693713_1_alg».proof.Proof.Gen.ReferenceIdeal.Run

set_option maxRecDepth 65536

noncomputable section

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.LayerSlices

variable (m : (ℓ : Loc nD τ sig) → Buf (Elt Ideal) ℓ) (ρ : Dev nD → PrngReg)

set_option maxHeartbeats 100000000 in
/-- The user class scores the kernel program ends with are the reference's. -/
theorem out0_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19)) :
    W13 m ρ c (Proc.devRef .tc main_v122) = Cert.ReferenceIdeal.Value.res_main_v126 m' c := by
  unfold Cert.ReferenceIdeal.Value.res_main_v126
  rw [h0, h1, h2, h3, h4, h5, h6, h7, h8, h9, h12, h13, h14, h15, h16, h17, h18, h19]
  walk_layers
  dsimp only [TRef.toBuf, TRef.ofBuf, cast_eq]
  rfl

end Cert.KernelIdeal.Named

end
-- ==== Proof.Out1.lean ====
/-
  The item class scores, kernel against reference.

  Both programs form them as the mean over incoming click edges of the second layer's dense layer of the hidden user
  features. The kernel takes that layer as the right half of the columns of one wider layer over the two class
  matrices; the hidden user features under it are the ones both programs share.
-/
import proofs.«171182_j33397665693713_1_alg».proof.Proof.WalkLayers
import proofs.«171182_j33397665693713_1_alg».proof.Proof.Gen.ReferenceIdeal.Run

set_option maxRecDepth 65536

noncomputable section

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.LayerSlices

variable (m : (ℓ : Loc nD τ sig) → Buf (Elt Ideal) ℓ) (ρ : Dev nD → PrngReg)

set_option maxHeartbeats 100000000 in
/-- The item class scores the kernel program ends with are the reference's. -/
theorem out1_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19)) :
    W13 m ρ c (Proc.devRef .tc main_v141) = Cert.ReferenceIdeal.Value.res_main_v149 m' c := by
  unfold Cert.ReferenceIdeal.Value.res_main_v149
  rw [h0, h1, h2, h3, h6, h7, h10, h11, h14, h15, h16, h17, h18, h19]
  walk_layers
  dsimp only [TRef.toBuf, TRef.ofBuf, cast_eq]
  rfl

end Cert.KernelIdeal.Named

end
-- ==== Proof.Out2.lean ====
/-
  The hidden user features, kernel against reference.

  Both programs form them as the leaky rectifier of the sum of two means: over incoming follow edges of the user
  features' dense layer, and over incoming reverse-click edges of the item features' dense layer. The kernel takes
  the first layer as the left half of the columns of one wider layer and the second from a tiled call of its own;
  column by column each is the same sum as the reference's, so the two results are one term of the launch memory.
-/
import proofs.«171182_j33397665693713_1_alg».proof.Proof.WalkLayers
import proofs.«171182_j33397665693713_1_alg».proof.Proof.Out0
import proofs.«171182_j33397665693713_1_alg».proof.Proof.Gen.ReferenceIdeal.Run

set_option maxRecDepth 65536

noncomputable section

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.LayerSlices

variable (m : (ℓ : Loc nD τ sig) → Buf (Elt Ideal) ℓ) (ρ : Dev nD → PrngReg)

set_option maxHeartbeats 100000000 in
/-- The hidden user features the kernel program ends with are the reference's. -/
theorem out2_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19)) :
    W13 m ρ c (Proc.devRef .tc main_v70) = Cert.ReferenceIdeal.Value.res_main_v74 m' c := by
  unfold Cert.ReferenceIdeal.Value.res_main_v74
  rw [h0, h1, h2, h3, h6, h7, h14, h15, h18, h19]
  walk_layers
  dsimp only [TRef.toBuf, TRef.ofBuf, cast_eq]
  rfl

end Cert.KernelIdeal.Named

end
-- ==== Proof.Out3.lean ====
/-
  The hidden item features, kernel against reference.

  Both programs form them as the leaky rectifier of the mean over incoming click edges of the user features' dense
  layer. The kernel takes that layer as the right half of the columns of one wider layer; column by column the
  two are the same sums, so the two results are one term of the launch memory.
-/
import proofs.«171182_j33397665693713_1_alg».proof.Proof.WalkLayers
import proofs.«171182_j33397665693713_1_alg».proof.Proof.Out1
import proofs.«171182_j33397665693713_1_alg».proof.Proof.Gen.ReferenceIdeal.Run

set_option maxRecDepth 65536

noncomputable section

namespace Cert.KernelIdeal.Named

open Cert.KernelIdeal Cert.KernelIdeal.Gen
open Idealize.ShloMosaic Idealize.ShloMosaic.TcCoe Idealize.ShloMosaic.StableHlo
open Idealize.SL.Sem
open Cert.DenseLayer Cert.LibRowBias Cert.LayerSlices

variable (m : (ℓ : Loc nD τ sig) → Buf (Elt Ideal) ℓ) (ρ : Dev nD → PrngReg)

set_option maxHeartbeats 40000000 in
/-- The hidden item features the kernel program ends with are the reference's. -/
theorem out3_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17)) :
    W13 m ρ c (Proc.devRef .tc main_v75) = Cert.ReferenceIdeal.Value.res_main_v79 m' c := by
  unfold Cert.ReferenceIdeal.Value.res_main_v79
  rw [h0, h4, h5, h16, h17]
  walk_layers
  dsimp only [TRef.toBuf, TRef.ofBuf, cast_eq]
  rfl

end Cert.KernelIdeal.Named

end
-- ==== Proof.lean ====
/-
  A two-layer heterogeneous graph network, Pallas kernel against its jnp reference, on the extended reals.

  Each layer sends the user features through two dense layers (one per outgoing edge type) and the item features
  through one, gathers the transformed source features along each edge list, averages them at the destinations, and
  adds the two edge types that arrive at users; a leaky rectifier sits between the layers. The reference forms every
  dense layer `x · w + b` by a general dot product and a broadcast bias. The kernel forms the two user-side layers
  as ONE tiled call on the two weight matrices set side by side and the two bias vectors set end to end, and slices
  the halves of the columns apart afterwards; the item-side layer is a tiled call of its own. Every gather, scatter,
  division and rectifier around the calls is the same host operation in both programs.

  Column `q` of `x · [w₁ | w₂] + [b₁ | b₂]` is column `q` of `x · w₁ + b₁` for `q` in the left half and column
  `q − n` of `x · w₂ + b₂` in the right half: the same sum over the contracted axis, term by term, with no use of
  finiteness. A tiled call computes the layer block of rows by block of rows, and an entry of the layer depends on one
  row of `x` only, so the blocks together are the layer of the whole array. With these two facts each of the four
  results is, in both programs, one and the same term of the launch memory.

  The three frames: the two kernel programs' by their generated frame proofs, the reference's by its generated run.
  The idealization rewrote nothing, so `preserves` is trivial.
-/
import proofs.«171182_j33397665693713_1_alg».proof.Defs
import proofs.«171182_j33397665693713_1_alg».proof.Proof.Gen.Kernel
import proofs.«171182_j33397665693713_1_alg».proof.Proof.Gen.Kernel.Skeleton
import proofs.«171182_j33397665693713_1_alg».proof.Proof.Gen.Kernel.Launch
import proofs.«171182_j33397665693713_1_alg».proof.Proof.Gen.Kernel.Points
import proofs.«171182_j33397665693713_1_alg».proof.Proof.Gen.Kernel.Frame
import proofs.«171182_j33397665693713_1_alg».proof.Proof.Gen.KernelIdeal
import proofs.«171182_j33397665693713_1_alg».proof.Proof.Gen.KernelIdeal.Skeleton
import proofs.«171182_j33397665693713_1_alg».proof.Proof.Gen.KernelIdeal.Launch
import proofs.«171182_j33397665693713_1_alg».proof.Proof.Gen.KernelIdeal.Points
import proofs.«171182_j33397665693713_1_alg».proof.Proof.Gen.KernelIdeal.Frame
import proofs.«171182_j33397665693713_1_alg».proof.Proof.Gen.ReferenceIdeal
import proofs.«171182_j33397665693713_1_alg».proof.Proof.Gen.Pre_finite_inputs
import proofs.«171182_j33397665693713_1_alg».proof.Proof.Gen.ReferenceIdeal.Run
import proofs.«171182_j33397665693713_1_alg».proof.Proof.Gen.ReferenceIdeal.Read
import proofs.«171182_j33397665693713_1_alg».proof.Proof.KernelRun
import proofs.«171182_j33397665693713_1_alg».proof.Proof.Out0
import proofs.«171182_j33397665693713_1_alg».proof.Proof.Out1
import proofs.«171182_j33397665693713_1_alg».proof.Proof.Out2
import proofs.«171182_j33397665693713_1_alg».proof.Proof.Out3
import Idealize.ShloMosaic.Adequacy
import Idealize.ShloMosaic.Init

noncomputable section

namespace Cert.Proof

open Idealize.ShloMosaic Idealize.ShloMosaic.TcCoe Idealize.SL.Sem

/-- The reference has no kernel: its frame is its run with the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.Value.run (F := Ideal) m ρ)

/-- From memories that agree on the twenty arguments both idealized programs run, and end with the four results equal:
    the kernel's at the last boundary's contents, which are the reference's terms. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W13 m ρ c (Proc.devRef .tc Cert.KernelIdeal.main_v122),
    fun c => Cert.KernelIdeal.Gen.W13 m ρ c (Proc.devRef .tc Cert.KernelIdeal.main_v141),
    fun c => Cert.KernelIdeal.Gen.W13 m ρ c (Proc.devRef .tc Cert.KernelIdeal.main_v70),
    fun c => Cert.KernelIdeal.Gen.W13 m ρ c (Proc.devRef .tc Cert.KernelIdeal.main_v75),
    Cert.KernelIdeal.Named.run_named (F := Ideal) m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17, h18, h19⟩ := hagree c
  exact ⟨(h c).1.trans (Cert.KernelIdeal.Named.out0_eq m ρ m' c h0 h1 h2 h3 h4 h5 h6 h7 h8 h9 h12 h13 h14 h15 h16 h17 h18 h19).symm,
    (h c).2.1.trans (Cert.KernelIdeal.Named.out1_eq m ρ m' c h0 h1 h2 h3 h6 h7 h10 h11 h14 h15 h16 h17 h18 h19).symm,
    (h c).2.2.1.trans (Cert.KernelIdeal.Named.out2_eq m ρ m' c h0 h1 h2 h3 h6 h7 h14 h15 h18 h19).symm,
    (h c).2.2.2.1.trans (Cert.KernelIdeal.Named.out3_eq m ρ m' c h0 h4 h5 h16 h17).symm,
    (h c).2.2.2.2⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
